-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x1 : Shape := ⟨2, ![30000, 1]⟩
abbrev S300000x1 : Shape := ⟨2, ![300000, 1]⟩
abbrev S2x300000 : Shape := ⟨2, ![2, 300000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x3 : Shape := ⟨2, ![256, 3]⟩
abbrev S3 : Shape := ⟨1, ![3]⟩
abbrev S_ : Shape := ⟨0, ![]⟩

class Facts : Prop where
  bcast_S_S30000x1 : S_.BroadcastsInDim S30000x1 (![] : Fin 0 → Fin S30000x1.rank)
  reducesTo_S30000x1_S_d0_1 : S30000x1.ReducesTo [0, 1] S_
  h_S_ : 0 < S_.numel
  bcast_S_S300000x1 : S_.BroadcastsInDim S300000x1 (![] : Fin 0 → Fin S300000x1.rank)
  reducesTo_S300000x1_S_d0_1 : S300000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S4x256 .f32) (main_arg13 : FVec F S256x3 .f32) (main_arg14 : FVec F S3 .f32) (main_v48 : IVec S_ 1) (main_v49 : FVec F S4x256x256 .f32) (main_v50 : FVec F S4x256x256 .f32) : IVec S_ 1 :=
  let main_v51 : IVec S4x256x256 1 := cmpf .olt main_v49 main_v50
  let main_c_19 : IVec S_ 1 := constantI S_ 1 1#1
  let main_v52 : IVec S_ 1 := (fun x v => Host.reduce IntOp.andi x v reducesTo_S4x256x256_S_d0_1_2 h_S_) main_v51 main_c_19
  let main_v53 : IVec S_ 1 := andi main_v48 main_v52
  let main_v54 : FVec F S4x256 .f32 := Host.absf main_arg12
  let main_cst_20 : FVec F S_ .f32 := constant S_ .f32 0x7F800000#32
  let main_v55 : FVec F S4x256 .f32 := broadcastInDim S4x256 ![] bcast_S_S4x256 main_cst_20
  let main_v56 : IVec S4x256 1 := cmpf .olt main_v54 main_v55
  let main_c_21 : IVec S_ 1 := constantI S_ 1 1#1
  let main_v57 : IVec S_ 1 := (fun x v => Host.reduce IntOp.andi x v reducesTo_S4x256_S_d0_1 h_S_) main_v56 main_c_21
  let main_v58 : IVec S_ 1 := andi main_v53 main_v57
  let main_v59 : FVec F S256x3 .f32 := Host.absf main_arg13
  let main_cst_22 : FVec F S_ .f32 := constant S_ .f32 0x7F800000#32
  let main_v60 : FVec F S256x3 .f32 := broadcastInDim S256x3 ![] bcast_S_S256x3 main_cst_22
  let main_v61 : IVec S256x3 1 := cmpf .olt main_v59 main_v60
  let main_c_23 : IVec S_ 1 := constantI S_ 1 1#1
  let main_v62 : IVec S_ 1 := (fun x v => Host.reduce IntOp.andi x v reducesTo_S256x3_S_d0_1 h_S_) main_v61 main_c_23
  let main_v63 : IVec S_ 1 := andi main_v58 main_v62
  let main_v64 : FVec F S3 .f32 := Host.absf main_arg14
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_v63 main_v67

def fn_part2 {F : FTy → Type} [FloatOps F] (main_arg8 : FVec F S128 .f32) (main_arg9 : FVec F S128x256 .f32) (main_arg10 : FVec F S256 .f32) (main_arg11 : FVec F S4x256x256 .f32) (main_arg12 : FVec F S4x256 .f32) (main_arg13 : FVec F S256x3 .f32) (main_arg14 : FVec F S3 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S4x256x256 .f32 := Host.absf main_arg11
  let main_cst_18 : FVec F S_ .f32 := constant S_ .f32 0x7F800000#32
  let main_v50 : FVec F S4x256x256 .f32 := broadcastInDim S4x256x256 ![] bcast_S_S4x256x256 main_cst_18
  fn_part3 (F := F) main_arg12 main_arg13 main_arg14 main_v48 main_v49 main_v50

def fn_part1 {F : FTy → Type} [FloatOps F] (main_arg5 : FVec F S128x256 .f32) (main_arg6 : FVec F S256 .f32) (main_arg7 : FVec F S1x128 .f32) (main_arg8 : FVec F S128 .f32) (main_arg9 : FVec F S128x256 .f32) (main_arg10 : FVec F S256 .f32) (main_arg11 : FVec F S4x256x256 .f32) (main_arg12 : FVec F S4x256 .f32) (main_arg13 : FVec F S256x3 .f32) (main_arg14 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x128 .f32 := Host.absf main_arg7
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S30000x1 .f32) (main_arg1 : FVec F S300000x1 .f32) (main_arg2 : IVec S2x300000 32) (main_arg3 : FVec F S1x128 .f32) (main_arg4 : FVec F S128 .f32) (main_arg5 : FVec F S128x256 .f32) (main_arg6 : FVec F S256 .f32) (main_arg7 : FVec F S1x128 .f32) (main_arg8 : FVec F S128 .f32) (main_arg9 : FVec F S128x256 .f32) (main_arg10 : FVec F S256 .f32) (main_arg11 : FVec F S4x256x256 .f32) (main_arg12 : FVec F S4x256 .f32) (main_arg13 : FVec F S256x3 .f32) (main_arg14 : FVec F S3 .f32) : IVec S_ 1 :=
  let main_v0 : FVec F S30000x1 .f32 := Host.absf main_arg0
  let main_cst : FVec F S_ .f32 := constant S_ .f32 0x7F800000#32
  let main_v1 : FVec F S30000x1 .f32 := broadcastInDim S30000x1 ![] bcast_S_S30000x1 main_cst
  let main_v2 : IVec S30000x1 1 := cmpf .olt main_v0 main_v1
  let main_c : IVec S_ 1 := constantI S_ 1 1#1
  let main_v3 : IVec S_ 1 := (fun x v => Host.reduce IntOp.andi x v reducesTo_S30000x1_S_d0_1 h_S_) main_v2 main_c
  let main_v4 : FVec F S300000x1 .f32 := Host.absf main_arg1
  let main_cst_0 : FVec F S_ .f32 := constant S_ .f32 0x7F800000#32
  let main_v5 : FVec F S300000x1 .f32 := broadcastInDim S300000x1 ![] bcast_S_S300000x1 main_cst_0
  let main_v6 : IVec S300000x1 1 := cmpf .olt main_v4 main_v5
  let main_c_1 : IVec S_ 1 := constantI S_ 1 1#1
  let main_v7 : IVec S_ 1 := (fun x v => Host.reduce IntOp.andi x v reducesTo_S300000x1_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S30000x1 : Shape := ⟨2, ![30000, 1]⟩
abbrev S300000x1 : Shape := ⟨2, ![300000, 1]⟩
abbrev S2x300000 : Shape := ⟨2, ![2, 300000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x3 : Shape := ⟨2, ![256, 3]⟩
abbrev S3 : Shape := ⟨1, ![3]⟩
abbrev S30000x256 : Shape := ⟨2, ![30000, 256]⟩
abbrev S3000x1 : Shape := ⟨2, ![3000, 1]⟩
abbrev S3000x256 : Shape := ⟨2, ![3000, 256]⟩
abbrev S3000x128 : Shape := ⟨2, ![3000, 128]⟩
abbrev S1x256 : Shape := ⟨2, ![1, 256]⟩
abbrev S300000x256 : Shape := ⟨2, ![300000, 256]⟩
abbrev S1x300000 : Shape := ⟨2, ![1, 300000]⟩
abbrev S300000 : Shape := ⟨1, ![300000]⟩
abbrev S_ : Shape := ⟨0, ![]⟩
abbrev S1x256x256 : Shape := ⟨3, ![1, 256, 256]⟩
abbrev S256x256 : Shape := ⟨2, ![256, 256]⟩
abbrev S30000x3 : Shape := ⟨2, ![30000, 3]⟩
abbrev S1x3 : Shape := ⟨2, ![1, 3]⟩

abbrev nBuf : Space → Nat
  | .hbm => 129
  | .vmem => 48
  | .smem => 0
  | _ => 0

abbrev hbmTy0_0 (i : Nat) : BufTy := match i % 128 with
  | 0 => ⟨S30000x1, .f32⟩
  | 1 => ⟨S300000x1, .f32⟩
  | 2 => ⟨S2x300000, .i32⟩
  | 3 => ⟨S1x128, .f32⟩
  | 4 => ⟨S128, .f32⟩
  | 5 => ⟨S128x256, .f32⟩
  | 6 => ⟨S256, .f32⟩
  | 7 => ⟨S1x128, .f32⟩
  | 8 => ⟨S128, .f32⟩
  | 9 => ⟨S128x256, .f32⟩
  | 10 => ⟨S256, .f32⟩
  | 11 => ⟨S4x256x256, .f32⟩
  | 12 => ⟨S4x256, .f32⟩
  | 13 => ⟨S256x3, .f32⟩
  | 14 => ⟨S3, .f32⟩
  | 15 => ⟨S30000x256, .f32⟩
  | 16 => ⟨S300000x256, .bf16⟩
  | 17 => ⟨S1x300000, .i32⟩
  | 18 => ⟨S300000, .i32⟩
  | 19 => ⟨S1x300000, .i32⟩
  | 20 => ⟨S300000, .i32⟩
  | 21 => ⟨S_, .i32⟩
  | 22 => ⟨S300000, .i32⟩
  | 23 => ⟨S300000, .i1⟩
  | 24 => ⟨S_, .i32⟩
  | 25 => ⟨S300000, .i32⟩
  | 26 => ⟨S300000, .i32⟩
  | 27 => ⟨S300000, .i32⟩
  | 28 => ⟨S300000x1, .i32⟩
  | 29 => ⟨S300000x256, .f32⟩
  | 30 => ⟨S300000x256, .f32⟩
  | 31 => ⟨S300000x256, .f32⟩
  | 32 => ⟨S_, .f32⟩
  | 33 => ⟨S300000x256, .f32⟩
  | 34 => ⟨S300000x256, .f32⟩
  | 35 => ⟨S_, .f32⟩
  | 36 => ⟨S300000x256, .f32⟩
  | 37 => ⟨S300000x256, .f32⟩
  | 38 => ⟨S_, .f32⟩
  | 39 => ⟨S30000x256, .f32⟩
  | 40 => ⟨S300000x1, .i32⟩
  | 41 => ⟨S30000x256, .f32⟩
  | 42 => ⟨S1x256x256, .f32⟩
  | 43 => ⟨S256x256, .f32⟩
  | 44 => ⟨S1x256, .f32⟩
  | 45 => ⟨S256, .f32⟩
  | 46 => ⟨S30000x256, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S300000x256, .f32⟩
  | 57 => ⟨S300000x256, .f32⟩
  | 58 => ⟨S_, .f32⟩
  | 59 => ⟨S300000x256, .f32⟩
  | 60 => ⟨S300000x256, .f32⟩
  | 61 => ⟨S_, .f32⟩
  | 62 => ⟨S300000x256, .f32⟩
  | 63 => ⟨S300000x256, .f32⟩
  | 64 => ⟨S_, .f32⟩
  | 65 => ⟨S30000x256, .f32⟩
  | 66 => ⟨S300000x1, .i32⟩
  | 67 => ⟨S30000x256, .f32⟩
  | 68 => ⟨S1x256x256, .f32⟩
  | 69 => ⟨S256x256, .f32⟩
  | 70 => ⟨S1x256, .f32⟩
  | 71 => ⟨S256, .f32⟩
  | 72 => ⟨S30000x256, .f32⟩
  | 73 => ⟨S_, .i32⟩
  | 74 => ⟨S300000, .i32⟩
  | 75 => ⟨S300000, .i1⟩
  | 76 => ⟨S_, .i32⟩
  | 77 => ⟨S300000, .i32⟩
  | 78 => ⟨S300000, .i32⟩
  | 79 => ⟨S300000, .i32⟩
  | 80 => ⟨S300000x1, .i32⟩
  | 81 => ⟨S300000x256, .f32⟩
  | 82 => ⟨S300000x256, .f32⟩
  | 83 => ⟨S300000x256, .f32⟩
  | 84 => ⟨S_, .f32⟩
  | 85 => ⟨S300000x256, .f32⟩
  | 86 => ⟨S300000x256, .f32⟩
  | 87 => ⟨S_, .f32⟩
  | 88 => ⟨S300000x256, .f32⟩
  | 89 => ⟨S300000x256, .f32⟩
  | 90 => ⟨S_, .f32⟩
  | 91 => ⟨S30000x256, .f32⟩
  | 92 => ⟨S300000x1, .i32⟩
  | 93 => ⟨S30000x256, .f32⟩
  | 94 => ⟨S1x256x256, .f32⟩
  | 95 => ⟨S256x256, .f32⟩
  | 96 => ⟨S1x256, .f32⟩
  | 97 => ⟨S256, .f32⟩
  | 98 => ⟨S30000x256, .f32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000x256, .f32⟩
  | 108 => ⟨S300000x256, .f32⟩
  | 109 => ⟨S300000x256, .f32⟩
  | 110 => ⟨S_, .f32⟩
  | 111 => ⟨S300000x256, .f32⟩
  | 112 => ⟨S300000x256, .f32⟩
  | 113 => ⟨S_, .f32⟩
  | 114 => ⟨S300000x256, .f32⟩
  | 115 => ⟨S300000x256, .f32⟩
  | 116 => ⟨S_, .f32⟩
  | 117 => ⟨S30000x256, .f32⟩
  | 118 => ⟨S300000x1, .i32⟩
  | 119 => ⟨S30000x256, .f32⟩
  | 120 => ⟨S1x256x256, .f32⟩
  | 121 => ⟨S256x256, .f32⟩
  | 122 => ⟨S1x256, .f32⟩
  | 123 => ⟨S256, .f32⟩
  | 124 => ⟨S30000x256, .f32⟩
  | 125 => ⟨S30000x3, .f32⟩
  | 126 => ⟨S1x3, .f32⟩
  | 127 => ⟨S30000x3, .f32⟩
  | _ => ⟨S30000x1, .f32⟩

abbrev hbmTy0_1 (i : Nat) : BufTy := match i % 128 with
  | 0 => ⟨S30000x3, .f32⟩
  | _ => ⟨S30000x1, .f32⟩

abbrev hbmTy (i : Nat) : BufTy := match i / 128 with
  | 0 => hbmTy0_0 i
  | 1 => hbmTy0_1 i
  | _ => ⟨S30000x1, .f32⟩

abbrev bufTy : (tb : Table) → Fin (tcTables nBuf tb) → BufTy
  | .hbm, ⟨i, _⟩ => hbmTy i
  | .local _ .vmem, ⟨0, _⟩ => ⟨S3000x1, .f32⟩
  | .local _ .vmem, ⟨1, _⟩ => ⟨S3000x1, .f32⟩
  | .local _ .vmem, ⟨2, _⟩ => ⟨S1x128, .f32⟩
  | .local _ .vmem, ⟨3, _⟩ => ⟨S128, .f32⟩
  | .local _ .vmem, ⟨4, _⟩ => ⟨S128x256, .f32⟩
  | .local _ .vmem, ⟨5, _⟩ => ⟨S256, .f32⟩
  | .local _ .vmem, ⟨6, _⟩ => ⟨S3000x256, .f32⟩
  | .local _ .vmem, ⟨7, _⟩ => ⟨S3000x256, .f32⟩
  | .local _ .vmem, ⟨8, _⟩ => ⟨S3000x1, .f32⟩
  | .local _ .vmem, ⟨9, _⟩ => ⟨S3000x1, .f32⟩
  | .local _ .vmem, ⟨10, _⟩ => ⟨S1x128, .f32⟩
  | .local _ .vmem, ⟨11, _⟩ => ⟨S128, .f32⟩
  | .local _ .vmem, ⟨12, _⟩ => ⟨S128x256, .f32⟩
  | .local _ .vmem, ⟨13, _⟩ => ⟨S256, .f32⟩
  | .local _ .vmem, ⟨14, _⟩ => ⟨S3000x256, .bf16⟩
  | .local _ .vmem, ⟨15, _⟩ => ⟨S3000x256, .bf16⟩
  | .local _ .vmem, ⟨16, _⟩ => ⟨S3000x256, .f32⟩
  | .local _ .vmem, ⟨17, _⟩ => ⟨S3000x256, .f32⟩
  | .local _ .vmem, ⟨18, _⟩ => ⟨S3000x256, .f32⟩
  | .local _ .vmem, ⟨19, _⟩ => ⟨S3000x256, .f32⟩
  | .local _ .vmem, ⟨20, _⟩ => ⟨S256x256, .f32⟩
  | .local _ .vmem, ⟨21, _⟩ => ⟨S256, .f32⟩
  | .local _ .vmem, ⟨22, _⟩ => ⟨S3000x256, .f32⟩
  | .local _ .vmem, ⟨23, _⟩ => ⟨S3000x256, .f32⟩
  | .local _ .vmem, ⟨24, _⟩ => ⟨S3000x256, .f32⟩
  | .local _ .vmem, ⟨25, _⟩ => ⟨S3000x256, .f32⟩
  | .local _ .vmem, ⟨26, _⟩ => ⟨S3000x256, .f32⟩
  | .local _ .vmem, ⟨27, _⟩ => ⟨S3000x256, .f32⟩
  | .local _ .vmem, ⟨28, _⟩ => ⟨S256x256, .f32⟩
  | .local _ .vmem, ⟨29, _⟩ => ⟨S256, .f32⟩
  | .local _ .vmem, ⟨30, _⟩ => ⟨S3000x256, .f32⟩
  | .local _ .vmem, ⟨31, _⟩ => ⟨S3000x256, .f32⟩
  | .local _ .vmem, ⟨32, _⟩ => ⟨S3000x256, .f32⟩
  | .local _ .vmem, ⟨33, _⟩ => ⟨S3000x256, .f32⟩
  | .local _ .vmem, ⟨34, _⟩ => ⟨S3000x256, .f32⟩
  | .local _ .vmem, ⟨35, _⟩ => ⟨S3000x256, .f32⟩
  | .local _ .vmem, ⟨36, _⟩ => ⟨S256x256, .f32⟩
  | .local _ .vmem, ⟨37, _⟩ => ⟨S256, .f32⟩
  | .local _ .vmem, ⟨38, _⟩ => ⟨S3000x256, .f32⟩
  | .local _ .vmem, ⟨39, _⟩ => ⟨S3000x256, .f32⟩
  | .local _ .vmem, ⟨40, _⟩ => ⟨S3000x256, .f32⟩
  | .local _ .vmem, ⟨41, _⟩ => ⟨S3000x256, .f32⟩
  | .local _ .vmem, ⟨42, _⟩ => ⟨S3000x256, .f32⟩
  | .local _ .vmem, ⟨43, _⟩ => ⟨S3000x256, .f32⟩
  | .local _ .vmem, ⟨44, _⟩ => ⟨S256x256, .f32⟩
  | .local _ .vmem, ⟨45, _⟩ => ⟨S256, .f32⟩
  | .local _ .vmem, ⟨46, _⟩ => ⟨S3000x256, .f32⟩
  | .local _ .vmem, ⟨47, _⟩ => ⟨S3000x256, .f32⟩
  | _, _ => ⟨S30000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_cst : Ref sig .tc := ⟨.hbm, 32, rfl⟩
abbrev main_call0_v0 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_c_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_cst : Ref sig .tc := ⟨.hbm, 58, rfl⟩
abbrev main_call1_v0 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call2_cst : Ref sig .tc := ⟨.hbm, 84, rfl⟩
abbrev main_call2_v0 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_10 : Ref sig .tc := ⟨.hbm, 99, rfl⟩
abbrev main_v66 : Ref sig .tc := ⟨.hbm, 100, rfl⟩
abbrev main_v67 : Ref sig .tc := ⟨.hbm, 101, rfl⟩
abbrev main_c_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_cst : Ref sig .tc := ⟨.hbm, 110, rfl⟩
abbrev main_call3_v0 : Ref sig .tc := ⟨.hbm, 111, rfl⟩
abbrev main_v75 : Ref sig .tc := ⟨.hbm, 112, rfl⟩
abbrev main_cst_12 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S3000x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S3000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S3000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S3000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S3000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  inb_S3000x1_S3000x1_0_0 : ∀ a, (![0, 0] : Fin 2 → Nat) a + S3000x1.size a ≤ S3000x1.size a
  h_S3000x1 : 0 < S3000x1.numel
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  broadcasts_S3000x1_S3000x128 : S3000x1.Broadcasts S3000x128
  broadcasts_S1x128_S3000x128 : S1x128.Broadcasts S3000x128
  shapeCasts_S128_S1x128 : S128.ShapeCasts S1x128
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S3000x256 : S1x256.Broadcasts S3000x256
  inb_S3000x256_S3000x256_0_0 : ∀ a, (![0, 0] : Fin 2 → Nat) a + S3000x256.size a ≤ S3000x256.size a
  h_S3000x256 : 0 < S3000x256.numel
  packedbf16_S3000x256_S3000x256_0_0 : (Rect.unit (s := S3000x256) ![0, 0] S3000x256.size inb_S3000x256_S3000x256_0_0).PackedRows (EltTy.packing .bf16)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  bcast_S_S30000x256 : S_.BroadcastsInDim S30000x256 (![] : Fin 0 → Fin S30000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S3000x256_S3000x256 : S3000x256.ShapeCasts S3000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S3_S1x3_1 : S3.BroadcastsInDim S1x3 (![1] : Fin 1 → Fin S1x3.rank)
  bcast_S1x3_S30000x3_0_1 : S1x3.BroadcastsInDim S30000x3 (![0, 1] : Fin 2 → Fin S30000x3.rank)
  dot_S3000x128_S128x256_S3000x256_1_0_0_1_n_n_wf : DotDims.WF S3000x128 S128x256 S3000x256 [1] [0] [0] [1] [] []
  gather_S30000x256_S300000x1_S300000x256_1_0_n_n_0_1_1256_wf : GatherDims.WF S30000x256 S300000x1 S300000x256 [1] [0] [] [0] [] 1 ![1, 256]
  scatter_S30000x256_S300000x1_S300000x256_1_0_0_1_wf : ScatterDims.WF S30000x256 S300000x1 S300000x256 [1] [0] [0] 1
  dot_S3000x256_S256x256_S3000x256_1_0_0_1_n_n_wf : DotDims.WF S3000x256 S256x256 S3000x256 [1] [0] [0] [1] [] []
  dot_S30000x256_S256x3_S30000x3_1_0_0_1_n_n_wf : DotDims.WF S30000x256 S256x3 S30000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x1.size a ≤ S30000x1.size a
  hwx0_0 : ∀ i : grid0.Coords, EltTy.bits .f32 = 32 ∨ (Rect.block (s := S30000x1) S3000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x256.size a ≤ S30000x256.size a
  hwx0_5 : ∀ i : grid0.Coords, EltTy.bits .f32 = 32 ∨ (Rect.block (s := S30000x256) S3000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x1.size a ≤ S300000x1.size a
  hwx1_0 : ∀ i : grid1.Coords, EltTy.bits .f32 = 32 ∨ (Rect.block (s := S300000x1) S3000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3000x256.size a ≤ S300000x256.size a
  hwx1_5 : ∀ i : grid1.Coords, EltTy.bits .bf16 = 32 ∨ (Rect.block (s := S300000x256) S3000x256.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x256.size a ≤ S30000x256.size a
  hwx2_0 : ∀ i : grid2.Coords, EltTy.bits .f32 = 32 ∨ (Rect.block (s := S30000x256) S3000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x256.size a ≤ S30000x256.size a
  hwx2_1 : ∀ i : grid2.Coords, EltTy.bits .f32 = 32 ∨ (Rect.block (s := S30000x256) S3000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x256.size a ≤ S30000x256.size a
  hwx2_4 : ∀ i : grid2.Coords, EltTy.bits .f32 = 32 ∨ (Rect.block (s := S30000x256) S3000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x256.size a ≤ S30000x256.size a
  hwx3_0 : ∀ i : grid3.Coords, EltTy.bits .f32 = 32 ∨ (Rect.block (s := S30000x256) S3000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3000x256.size a ≤ S30000x256.size a
  hwx3_1 : ∀ i : grid3.Coords, EltTy.bits .f32 = 32 ∨ (Rect.block (s := S30000x256) S3000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S3000x256.size a ≤ S30000x256.size a
  hwx3_4 : ∀ i : grid3.Coords, EltTy.bits .f32 = 32 ∨ (Rect.block (s := S30000x256) S3000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S3000x256.size a ≤ S30000x256.size a
  hwx4_0 : ∀ i : grid4.Coords, EltTy.bits .f32 = 32 ∨ (Rect.block (s := S30000x256) S3000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3000x256.size a ≤ S30000x256.size a
  hwx4_1 : ∀ i : grid4.Coords, EltTy.bits .f32 = 32 ∨ (Rect.block (s := S30000x256) S3000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S3000x256.size a ≤ S30000x256.size a
  hwx4_4 : ∀ i : grid4.Coords, EltTy.bits .f32 = 32 ∨ (Rect.block (s := S30000x256) S3000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3000x256.size a ≤ S30000x256.size a
  hwx5_0 : ∀ i : grid5.Coords, EltTy.bits .f32 = 32 ∨ (Rect.block (s := S30000x256) S3000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3000x256.size a ≤ S30000x256.size a
  hwx5_1 : ∀ i : grid5.Coords, EltTy.bits .f32 = 32 ∨ (Rect.block (s := S30000x256) S3000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256.size a ≤ S256.size a
  hwx5_3 : ∀ i : grid5.Coords, EltTy.bits .f32 = 32 ∨ (Rect.block (s := S256) S256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S3000x256.size a ≤ S30000x256.size a
  hwx5_4 : ∀ i : grid5.Coords, EltTy.bits .f32 = 32 ∨ (Rect.block (s := S30000x256) S3000x256.size (cc5_transform_4 i) (hinb5_4 i)).WholeWords (EltTy.packing .f32)

variable [Facts₀]

def dot_S3000x128_S128x256_S3000x256_1_0_0_1_n_n : DotDims S3000x128 S128x256 S3000x256 where
  lhsContracting := [1]
  rhsContracting := [0]
  lhsNonContracting := [0]
  rhsNonContracting := [1]
  lhsBatch := []
  rhsBatch := []
  wf := dot_S3000x128_S128x256_S3000x256_1_0_0_1_n_n_wf
def gather_S30000x256_S300000x1_S300000x256_1_0_n_n_0_1_1256 : GatherDims S30000x256 S300000x1 S300000x256 where
  offsetDims := [1]
  collapsedSliceDims := [0]
  operandBatchingDims := []
  startIndicesBatchingDims := []
  startIndexMap := [0]
  indexVectorDim := 1
  sliceSizes := ![1, 256]
  wf := gather_S30000x256_S300000x1_S300000x256_1_0_n_n_0_1_1256_wf
def scatter_S30000x256_S300000x1_S300000x256_1_0_0_1 : ScatterDims S30000x256 S300000x1 S300000x256 where
  updateWindowDims := [1]
  insertedWindowDims := [0]
  scatterDimsToOperandDims := [0]
  indexVectorDim := 1
  wf := scatter_S30000x256_S300000x1_S300000x256_1_0_0_1_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S30000x256_S256x3_S30000x3_1_0_0_1_n_n : DotDims S30000x256 S256x3 S30000x3 where
  lhsContracting := [1]
  rhsContracting := [0]
  lhsNonContracting := [0]
  rhsNonContracting := [1]
  lhsBatch := []
  rhsBatch := []
  wf := dot_S30000x256_S256x3_S30000x3_1_0_0_1_n_n_wf

abbrev win0_0 : Pipeline.Window sig grid0 :=
  Pipeline.Window.ofSpec (Memref.whole main_arg0) S3000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S3000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S3000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S3000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S3000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S3000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S3000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S3000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S3000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S3000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S3000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S3000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S3000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v80) S3000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S3000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v82) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S3000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S30000x1 : Shape := ⟨2, ![30000, 1]⟩
abbrev S300000x1 : Shape := ⟨2, ![300000, 1]⟩
abbrev S2x300000 : Shape := ⟨2, ![2, 300000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S4x256x256 : Shape := ⟨3, ![4, 256, 256]⟩
abbrev S4x256 : Shape := ⟨2, ![4, 256]⟩
abbrev S256x3 : Shape := ⟨2, ![256, 3]⟩
abbrev S3 : Shape := ⟨1, ![3]⟩
abbrev S30000x128 : Shape := ⟨2, ![30000, 128]⟩
abbrev S_ : Shape := ⟨0, ![]⟩
abbrev S30000x256 : Shape := ⟨2, ![30000, 256]⟩
abbrev S1x256 : Shape := ⟨2, ![1, 256]⟩
abbrev S300000x128 : Shape := ⟨2, ![300000, 128]⟩
abbrev S300000x256 : Shape := ⟨2, ![300000, 256]⟩
abbrev S1x300000 : Shape := ⟨2, ![1, 300000]⟩
abbrev S300000 : Shape := ⟨1, ![300000]⟩
abbrev S1x256x256 : Shape := ⟨3, ![1, 256, 256]⟩
abbrev S256x256 : Shape := ⟨2, ![256, 256]⟩
abbrev S30000x3 : Shape := ⟨2, ![30000, 3]⟩
abbrev S1x3 : Shape := ⟨2, ![1, 3]⟩

abbrev nBuf : Space → Nat
  | .hbm => 161
  | .vmem => 0
  | .smem => 0
  | _ => 0

abbrev hbmTy0_0 (i : Nat) : BufTy := match i % 128 with
  | 0 => ⟨S30000x1, .f32⟩
  | 1 => ⟨S300000x1, .f32⟩
  | 2 => ⟨S2x300000, .i32⟩
  | 3 => ⟨S1x128, .f32⟩
  | 4 => ⟨S128, .f32⟩
  | 5 => ⟨S128x256, .f32⟩
  | 6 => ⟨S256, .f32⟩
  | 7 => ⟨S1x128, .f32⟩
  | 8 => ⟨S128, .f32⟩
  | 9 => ⟨S128x256, .f32⟩
  | 10 => ⟨S256, .f32⟩
  | 11 => ⟨S4x256x256, .f32⟩
  | 12 => ⟨S4x256, .f32⟩
  | 13 => ⟨S256x3, .f32⟩
  | 14 => ⟨S3, .f32⟩
  | 15 => ⟨S30000x128, .f32⟩
  | 16 => ⟨S1x128, .f32⟩
  | 17 => ⟨S30000x128, .f32⟩
  | 18 => ⟨S30000x128, .f32⟩
  | 19 => ⟨S_, .f32⟩
  | 20 => ⟨S30000x128, .f32⟩
  | 21 => ⟨S30000x128, .f32⟩
  | 22 => ⟨S30000x256, .f32⟩
  | 23 => ⟨S1x256, .f32⟩
  | 24 => ⟨S30000x256, .f32⟩
  | 25 => ⟨S30000x256, .f32⟩
  | 26 => ⟨S300000x128, .f32⟩
  | 27 => ⟨S1x128, .f32⟩
  | 28 => ⟨S300000x128, .f32⟩
  | 29 => ⟨S300000x128, .f32⟩
  | 30 => ⟨S_, .f32⟩
  | 31 => ⟨S300000x128, .f32⟩
  | 32 => ⟨S300000x128, .f32⟩
  | 33 => ⟨S300000x256, .f32⟩
  | 34 => ⟨S1x256, .f32⟩
  | 35 => ⟨S300000x256, .f32⟩
  | 36 => ⟨S300000x256, .f32⟩
  | 37 => ⟨S1x300000, .i32⟩
  | 38 => ⟨S300000, .i32⟩
  | 39 => ⟨S1x300000, .i32⟩
  | 40 => ⟨S300000, .i32⟩
  | 41 => ⟨S_, .i32⟩
  | 42 => ⟨S300000, .i32⟩
  | 43 => ⟨S300000, .i1⟩
  | 44 => ⟨S_, .i32⟩
  | 45 => ⟨S300000, .i32⟩
  | 46 => ⟨S300000, .i32⟩
  | 47 => ⟨S300000, .i32⟩
  | 48 => ⟨S300000x1, .i32⟩
  | 49 => ⟨S300000x256, .f32⟩
  | 50 => ⟨S300000x256, .f32⟩
  | 51 => ⟨S_, .f32⟩
  | 52 => ⟨S300000x256, .f32⟩
  | 53 => ⟨S300000x256, .f32⟩
  | 54 => ⟨S_, .f32⟩
  | 55 => ⟨S300000x256, .f32⟩
  | 56 => ⟨S300000x256, .f32⟩
  | 57 => ⟨S_, .f32⟩
  | 58 => ⟨S30000x256, .f32⟩
  | 59 => ⟨S300000x1, .i32⟩
  | 60 => ⟨S30000x256, .f32⟩
  | 61 => ⟨S30000x256, .f32⟩
  | 62 => ⟨S1x256x256, .f32⟩
  | 63 => ⟨S256x256, .f32⟩
  | 64 => ⟨S30000x256, .f32⟩
  | 65 => ⟨S1x256, .f32⟩
  | 66 => ⟨S256, .f32⟩
  | 67 => ⟨S1x256, .f32⟩
  | 68 => ⟨S30000x256, .f32⟩
  | 69 => ⟨S30000x256, .f32⟩
  | 70 => ⟨S_, .i32⟩
  | 71 => ⟨S300000, .i32⟩
  | 72 => ⟨S300000, .i1⟩
  | 73 => ⟨S_, .i32⟩
  | 74 => ⟨S300000, .i32⟩
  | 75 => ⟨S300000, .i32⟩
  | 76 => ⟨S300000, .i32⟩
  | 77 => ⟨S300000x1, .i32⟩
  | 78 => ⟨S300000x256, .f32⟩
  | 79 => ⟨S300000x256, .f32⟩
  | 80 => ⟨S_, .f32⟩
  | 81 => ⟨S300000x256, .f32⟩
  | 82 => ⟨S300000x256, .f32⟩
  | 83 => ⟨S_, .f32⟩
  | 84 => ⟨S300000x256, .f32⟩
  | 85 => ⟨S300000x256, .f32⟩
  | 86 => ⟨S_, .f32⟩
  | 87 => ⟨S30000x256, .f32⟩
  | 88 => ⟨S300000x1, .i32⟩
  | 89 => ⟨S30000x256, .f32⟩
  | 90 => ⟨S30000x256, .f32⟩
  | 91 => ⟨S1x256x256, .f32⟩
  | 92 => ⟨S256x256, .f32⟩
  | 93 => ⟨S30000x256, .f32⟩
  | 94 => ⟨S1x256, .f32⟩
  | 95 => ⟨S256, .f32⟩
  | 96 => ⟨S1x256, .f32⟩
  | 97 => ⟨S30000x256, .f32⟩
  | 98 => ⟨S30000x256, .f32⟩
  | 99 => ⟨S_, .i32⟩
  | 100 => ⟨S300000, .i32⟩
  | 101 => ⟨S300000, .i1⟩
  | 102 => ⟨S_, .i32⟩
  | 103 => ⟨S300000, .i32⟩
  | 104 => ⟨S300000, .i32⟩
  | 105 => ⟨S300000, .i32⟩
  | 106 => ⟨S300000x1, .i32⟩
  | 107 => ⟨S300000x256, .f32⟩
  | 108 => ⟨S300000x256, .f32⟩
  | 109 => ⟨S_, .f32⟩
  | 110 => ⟨S300000x256, .f32⟩
  | 111 => ⟨S300000x256, .f32⟩
  | 112 => ⟨S_, .f32⟩
  | 113 => ⟨S300000x256, .f32⟩
  | 114 => ⟨S300000x256, .f32⟩
  | 115 => ⟨S_, .f32⟩
  | 116 => ⟨S30000x256, .f32⟩
  | 117 => ⟨S300000x1, .i32⟩
  | 118 => ⟨S30000x256, .f32⟩
  | 119 => ⟨S30000x256, .f32⟩
  | 120 => ⟨S1x256x256, .f32⟩
  | 121 => ⟨S256x256, .f32⟩
  | 122 => ⟨S30000x256, .f32⟩
  | 123 => ⟨S1x256, .f32⟩
  | 124 => ⟨S256, .f32⟩
  | 125 => ⟨S1x256, .f32⟩
  | 126 => ⟨S30000x256, .f32⟩
  | 127 => ⟨S30000x256, .f32⟩
  | _ => ⟨S30000x1, .f32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x256, .f32⟩
  | 9 => ⟨S300000x256, .f32⟩
  | 10 => ⟨S_, .f32⟩
  | 11 => ⟨S300000x256, .f32⟩
  | 12 => ⟨S300000x256, .f32⟩
  | 13 => ⟨S_, .f32⟩
  | 14 => ⟨S300000x256, .f32⟩
  | 15 => ⟨S300000x256, .f32⟩
  | 16 => ⟨S_, .f32⟩
  | 17 => ⟨S30000x256, .f32⟩
  | 18 => ⟨S300000x1, .i32⟩
  | 19 => ⟨S30000x256, .f32⟩
  | 20 => ⟨S30000x256, .f32⟩
  | 21 => ⟨S1x256x256, .f32⟩
  | 22 => ⟨S256x256, .f32⟩
  | 23 => ⟨S30000x256, .f32⟩
  | 24 => ⟨S1x256, .f32⟩
  | 25 => ⟨S256, .f32⟩
  | 26 => ⟨S1x256, .f32⟩
  | 27 => ⟨S30000x256, .f32⟩
  | 28 => ⟨S30000x256, .f32⟩
  | 29 => ⟨S30000x3, .f32⟩
  | 30 => ⟨S1x3, .f32⟩
  | 31 => ⟨S30000x3, .f32⟩
  | 32 => ⟨S30000x3, .f32⟩
  | _ => ⟨S30000x1, .f32⟩

abbrev hbmTy (i : Nat) : BufTy := match i / 128 with
  | 0 => hbmTy0_0 i
  | 1 => hbmTy0_1 i
  | _ => ⟨S30000x1, .f32⟩

abbrev bufTy : (tb : Table) → Fin (tcTables nBuf tb) → BufTy
  | .hbm, ⟨i, _⟩ => hbmTy i
  | _, _ => ⟨S30000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_cst : Ref sig .tc := ⟨.hbm, 30, rfl⟩
abbrev main_call1_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_cst : Ref sig .tc := ⟨.hbm, 54, rfl⟩
abbrev main_v31 : Ref sig .tc := ⟨.hbm, 55, rfl⟩
abbrev main_v32 : Ref sig .tc := ⟨.hbm, 56, rfl⟩
abbrev main_cst_1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_2 : Ref sig .tc := ⟨.hbm, 70, rfl⟩
abbrev main_v45 : Ref sig .tc := ⟨.hbm, 71, rfl⟩
abbrev main_v46 : Ref sig .tc := ⟨.hbm, 72, rfl⟩
abbrev main_c_3 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_cst : Ref sig .tc := ⟨.hbm, 80, rfl⟩
abbrev main_call3_v0 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_6 : Ref sig .tc := ⟨.hbm, 99, rfl⟩
abbrev main_v68 : Ref sig .tc := ⟨.hbm, 100, rfl⟩
abbrev main_v69 : Ref sig .tc := ⟨.hbm, 101, rfl⟩
abbrev main_c_7 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call4_cst : Ref sig .tc := ⟨.hbm, 109, rfl⟩
abbrev main_call4_v0 : Ref sig .tc := ⟨.hbm, 110, rfl⟩
abbrev main_v76 : Ref sig .tc := ⟨.hbm, 111, rfl⟩
abbrev main_cst_8 : Ref sig .tc := ⟨.hbm, 112, rfl⟩
abbrev main_v77 : Ref sig .tc := ⟨.hbm, 113, rfl⟩
abbrev main_v78 : Ref sig .tc := ⟨.hbm, 114, rfl⟩
abbrev main_cst_9 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_10 : Ref sig .tc := ⟨.hbm, 128, rfl⟩
abbrev main_v91 : Ref sig .tc := ⟨.hbm, 129, rfl⟩
abbrev main_v92 : Ref sig .tc := ⟨.hbm, 130, rfl⟩
abbrev main_c_11 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call5_cst : Ref sig .tc := ⟨.hbm, 138, rfl⟩
abbrev main_call5_v0 : Ref sig .tc := ⟨.hbm, 139, rfl⟩
abbrev main_v99 : Ref sig .tc := ⟨.hbm, 140, rfl⟩
abbrev main_cst_12 : Ref sig .tc := ⟨.hbm, 141, rfl⟩
abbrev main_v100 : Ref sig .tc := ⟨.hbm, 142, rfl⟩
abbrev main_v101 : Ref sig .tc := ⟨.hbm, 143, rfl⟩
abbrev main_cst_13 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S30000x128 : S_.BroadcastsInDim S30000x128 (![] : Fin 0 → Fin S30000x128.rank)
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S1x256_S300000x256_0_1 : S1x256.BroadcastsInDim S300000x256 (![0, 1] : Fin 2 → Fin S300000x256.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  bcast_S_S30000x256 : S_.BroadcastsInDim S30000x256 (![] : Fin 0 → Fin S30000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  bcast_S3_S1x3_1 : S3.BroadcastsInDim S1x3 (![1] : Fin 1 → Fin S1x3.rank)
  bcast_S1x3_S30000x3_0_1 : S1x3.BroadcastsInDim S30000x3 (![0, 1] : Fin 2 → Fin S30000x3.rank)
  dot_S30000x1_S1x128_S30000x128_1_0_0_1_n_n_wf : DotDims.WF S30000x1 S1x128 S30000x128 [1] [0] [0] [1] [] []
  dot_S30000x128_S128x256_S30000x256_1_0_0_1_n_n_wf : DotDims.WF S30000x128 S128x256 S30000x256 [1] [0] [0] [1] [] []
  dot_S300000x1_S1x128_S300000x128_1_0_0_1_n_n_wf : DotDims.WF S300000x1 S1x128 S300000x128 [1] [0] [0] [1] [] []
  dot_S300000x128_S128x256_S300000x256_1_0_0_1_n_n_wf : DotDims.WF S300000x128 S128x256 S300000x256 [1] [0] [0] [1] [] []
  gather_S30000x256_S300000x1_S300000x256_1_0_n_n_0_1_1256_wf : GatherDims.WF S30000x256 S300000x1 S300000x256 [1] [0] [] [0] [] 1 ![1, 256]
  scatter_S30000x256_S300000x1_S300000x256_1_0_0_1_wf : ScatterDims.WF S30000x256 S300000x1 S300000x256 [1] [0] [0] 1
  dot_S30000x256_S256x256_S30000x256_1_0_0_1_n_n_wf : DotDims.WF S30000x256 S256x256 S30000x256 [1] [0] [0] [1] [] []
  dot_S30000x256_S256x3_S30000x3_1_0_0_1_n_n_wf : DotDims.WF S30000x256 S256x3 S30000x3 [1] [0] [0] [1] [] []

variable [Facts₀]

def dot_S30000x1_S1x128_S30000x128_1_0_0_1_n_n : DotDims S30000x1 S1x128 S30000x128 where
  lhsContracting := [1]
  rhsContracting := [0]
  lhsNonContracting := [0]
  rhsNonContracting := [1]
  lhsBatch := []
  rhsBatch := []
  wf := dot_S30000x1_S1x128_S30000x128_1_0_0_1_n_n_wf
def dot_S30000x128_S128x256_S30000x256_1_0_0_1_n_n : DotDims S30000x128 S128x256 S30000x256 where
  lhsContracting := [1]
  rhsContracting := [0]
  lhsNonContracting := [0]
  rhsNonContracting := [1]
  lhsBatch := []
  rhsBatch := []
  wf := dot_S30000x128_S128x256_S30000x256_1_0_0_1_n_n_wf
def dot_S300000x1_S1x128_S300000x128_1_0_0_1_n_n : DotDims S300000x1 S1x128 S300000x128 where
  lhsContracting := [1]
  rhsContracting := [0]
  lhsNonContracting := [0]
  rhsNonContracting := [1]
  lhsBatch := []
  rhsBatch := []
  wf := dot_S300000x1_S1x128_S300000x128_1_0_0_1_n_n_wf
def dot_S300000x128_S128x256_S300000x256_1_0_0_1_n_n : DotDims S300000x128 S128x256 S300000x256 where
  lhsContracting := [1]
  rhsContracting := [0]
  lhsNonContracting := [0]
  rhsNonContracting := [1]
  lhsBatch := []
  rhsBatch := []
  wf := dot_S300000x128_S128x256_S300000x256_1_0_0_1_n_n_wf
def gather_S30000x256_S300000x1_S300000x256_1_0_n_n_0_1_1256 : GatherDims S30000x256 S300000x1 S300000x256 where
  offsetDims := [1]
  collapsedSliceDims := [0]
  operandBatchingDims := []
  startIndicesBatchingDims := []
  startIndexMap := [0]
  indexVectorDim := 1
  sliceSizes := ![1, 256]
  wf := gather_S30000x256_S300000x1_S300000x256_1_0_n_n_0_1_1256_wf
def scatter_S30000x256_S300000x1_S300000x256_1_0_0_1 : ScatterDims S30000x256 S300000x1 S300000x256 where
  updateWindowDims := [1]
  insertedWindowDims := [0]
  scatterDimsToOperandDims := [0]
  indexVectorDim := 1
  wf := scatter_S30000x256_S300000x1_S300000x256_1_0_0_1_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def dot_S30000x256_S256x3_S30000x3_1_0_0_1_n_n : DotDims S30000x256 S256x3 S30000x3 where
  lhsContracting := [1]
  rhsContracting := [0]
  lhsNonContracting := [0]
  rhsNonContracting := [1]
  lhsBatch := []
  rhsBatch := []
  wf := dot_S30000x256_S256x3_S30000x3_1_0_0_1_n_n_wf

class Facts : Prop extends Facts₀ where

variable [Facts]
-- ==== Proof.KernelRun.lean ====
/-
  The idealized kernel's run with every buffer named.

  @main is nineteen segments: six kernel regions among thirteen stretches of host operations. The
  generated frame module folds the TensorCore's buffer contents through them: `W0` is the launch
  memory, a host stretch takes a valuation to `StableHlo.after` of its operations, a region replaces
  its arrays by what its write-backs leave, and `W19` is the valuation after the last stretch. Each
  segment is entered with every unscoped buffer held at the previous boundary's valuation, so the
  thread states chain, and the launch theorem for a list of segments gives: every weakly fair
  execution terminates, and in the final memory every unscoped buffer holds `W19` at its reference.
  In particular the result buffer holds `W19` there, and each argument its launch contents.
-/
import proofs.«156761_j26216480375265_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last stretch leaves — the buffers at `W19`, the generator register at some state, nothing
    owed — regrouped as the final thread state beside the empty debt. -/
theorem last_post (c : Dev nD) :
    (iprop(StableHlo.held (c : Thread nD τ) (Pipeline.ucRefs τ sig) (W19 m ρ c) ∗ R (F := F) c) : sProp 𝕄)
      ⊢ iprop(Tₙ m ρ c ∗ ∃ W, owes (c : Thread nD τ) (0 : CellTallies nD τ sig Unit) W) := by
  iintro ⟨Hheld, Hreg, Howes⟩
  isplitl [Hheld Hreg]
  · isplitl [Hheld]
    · iexact Hheld
    · iexact Hreg
  · iexact Howes

-- the launch theorem's implicit arguments are found by unifying its conclusion with this one, which takes
-- unfolding plain definitions in a metavariable's type
set_option backward.isDefEq.respectTransparency.types false in
/-- Every weakly fair execution of @main terminates, nothing faulting, and every unscoped buffer of every core
    ends at the last boundary's valuation `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    -- @main is the run of its segments
    (fun c Q => by rw [main_run m ρ c])
    -- each of the six pipelines is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core needs a ghost resource beside it
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    -- each segment is entered from exactly what the one before it left; after the last, regroup
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        dsimp only [Pipeline.Seg.post, hseg, Pipeline.HostSeg.ofOps]
        exact last_post m ρ c⟩)
    -- at launch each core holds its unscoped buffers at the launch memory, its register, and owes nothing
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hbufs, -, Howes, -, Hreg, -⟩, -⟩
      imodintro
      isplitl [Hbufs]
      · iexact Hbufs
      isplitl [Hreg]
      · iexists _
        iexact Hreg
      · iexists ∅
        iexact Howes)
    (QY := fun c s => ∀ b ∈ Pipeline.ucRefs τ sig, s.mem (((c : Thread nD τ)).1, b) = W19 m ρ c b)
    -- buffers held at a valuation read as that valuation in any state they are held in
    (hfin := fun c s' => by
      iintro ⟨⟨Hheld, -⟩, Hstate⟩
      unfold StableHlo.held
      imodintro
      iapply (pointsTo_read_all (Pipeline.ucRefs τ sig) (fun b => (((c : Thread nD τ)).1, b)) (W19 m ρ c) s')
      isplitl [Hheld] <;> iassumption)
    (hQ := fun _ h => h)

/-- The run with its result named: the result buffer ends at `W19` of its reference, and every argument array as
    launched (no host operation and no region writes an argument). -/
theorem run_value : θ_run defs (onTc (τ := τ) (main (F := F))) ⟨m, fun _ => 0, ρ⟩ (fun r => ∀ c : Dev nD,
      r.2.mem ((c.tc : Thread nD τ).loc main_v89) = W19 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v89 (by decide)),
      (h c _ (mem_uc main_arg0 (by decide))).trans (W19_main_arg0 m ρ c),
      (h c _ (mem_uc main_arg1 (by decide))).trans (W19_main_arg1 m ρ c),
      (h c _ (mem_uc main_arg2 (by decide))).trans (W19_main_arg2 m ρ c),
      (h c _ (mem_uc main_arg3 (by decide))).trans (W19_main_arg3 m ρ c),
      (h c _ (mem_uc main_arg4 (by decide))).trans (W19_main_arg4 m ρ c),
      (h c _ (mem_uc main_arg5 (by decide))).trans (W19_main_arg5 m ρ c),
      (h c _ (mem_uc main_arg6 (by decide))).trans (W19_main_arg6 m ρ c),
      (h c _ (mem_uc main_arg7 (by decide))).trans (W19_main_arg7 m ρ c),
      (h c _ (mem_uc main_arg8 (by decide))).trans (W19_main_arg8 m ρ c),
      (h c _ (mem_uc main_arg9 (by decide))).trans (W19_main_arg9 m ρ c),
      (h c _ (mem_uc main_arg10 (by decide))).trans (W19_main_arg10 m ρ c),
      (h c _ (mem_uc main_arg11 (by decide))).trans (W19_main_arg11 m ρ c),
      (h c _ (mem_uc main_arg12 (by decide))).trans (W19_main_arg12 m ρ c),
      (h c _ (mem_uc main_arg13 (by decide))).trans (W19_main_arg13 m ρ c),
      (h c _ (mem_uc main_arg14 (by decide))).trans (W19_main_arg14 m ρ c)⟩) (run_all m ρ)

end Cert.KernelIdeal.Named

end
-- ==== Proof.LayerSpec.lean ====
/-
  What the two kinds of kernel region compute, as functions of whole arrays on the extended reals.

  An encoder takes a one-feature input `x : [R, 1]`, a first layer `w1 : [1, 128]`, `b1 : [128]` and a second layer
  `w2 : [128, 256]`, `b2 : [256]`; entry `(p, q)` of its result is
      sum over k < 128 of  max (x(p,0) · w1(0,k) + b1(k)) 0 · w2(k,q),   plus b2(q).
  The contraction over the single input feature is the one product `x(p,0) · w1(0,k)`.
  An update layer takes the aggregated messages `agg` and the node states `h`, both `[N, 256]`, a weight
  `W : [256, 256]` and a bias `b : [256]`; entry `(p, q)` of its result is
      sum over k < 256 of  (agg(p,k) + h(p,k)) · W(k,q),   plus b(q).
  Row `p` of either result depends on row `p` of the row-indexed inputs only: that is why a kernel may compute it
  a block of rows at a time.
-/
import Idealize.ShloMosaic.PureOps.Ideal
import Idealize.ShloMosaic.Lib.ValueIdx

noncomputable section

namespace Cert.GnnSpec

open Idealize.ShloMosaic Idealize.ShloMosaic.ValueIdx

/-- The float zero that the rectifier compares with, as the value of its bit pattern (never evaluated: the same
    word stands on both sides). -/
abbrev zero32 : EReal := Ideal.ofBits .f32 0x00000000#32

/-- Entry `(p, q)` of an encoder's result over `R` rows. -/
def encodeAt (R : ℕ) (x : (⟨2, ![R, 1]⟩ : Shape).Idx → EReal) (w1 : (⟨2, ![1, 128]⟩ : Shape).Idx → EReal)
    (b1 : (⟨1, ![128]⟩ : Shape).Idx → EReal) (w2 : (⟨2, ![128, 256]⟩ : Shape).Idx → EReal)
    (b2 : (⟨1, ![256]⟩ : Shape).Idx → EReal) (p : Fin R) (q : Fin 256) : EReal :=
  (∑ k : Fin 128, max (x (ix2 p (0 : Fin 1)) * w1 (ix2 (0 : Fin 1) k) + b1 (ix1 k)) zero32 * w2 (ix2 k q)) + b2 (ix1 q)

/-- An encoder's result as one array. -/
def encode (R : ℕ) (x : (⟨2, ![R, 1]⟩ : Shape).Idx → EReal) (w1 : (⟨2, ![1, 128]⟩ : Shape).Idx → EReal)
    (b1 : (⟨1, ![128]⟩ : Shape).Idx → EReal) (w2 : (⟨2, ![128, 256]⟩ : Shape).Idx → EReal)
    (b2 : (⟨1, ![256]⟩ : Shape).Idx → EReal) : (⟨2, ![R, 256]⟩ : Shape).Idx → EReal :=
  fun i => encodeAt R x w1 b1 w2 b2 (i 0) (i 1)

theorem encode_ix2 (R : ℕ) (x : (⟨2, ![R, 1]⟩ : Shape).Idx → EReal) (w1 : (⟨2, ![1, 128]⟩ : Shape).Idx → EReal)
    (b1 : (⟨1, ![128]⟩ : Shape).Idx → EReal) (w2 : (⟨2, ![128, 256]⟩ : Shape).Idx → EReal)
    (b2 : (⟨1, ![256]⟩ : Shape).Idx → EReal) (p : Fin R) (q : Fin 256) :
    encode R x w1 b1 w2 b2 (ix2 p q) = encodeAt R x w1 b1 w2 b2 p q := rfl

/-- Entry `(p, q)` of an update layer's result over `N` rows. -/
def updateAt (N : ℕ) (agg h : (⟨2, ![N, 256]⟩ : Shape).Idx → EReal) (W : (⟨2, ![256, 256]⟩ : Shape).Idx → EReal)
    (b : (⟨1, ![256]⟩ : Shape).Idx → EReal) (p : Fin N) (q : Fin 256) : EReal :=
  (∑ k : Fin 256, (agg (ix2 p k) + h (ix2 p k)) * W (ix2 k q)) + b (ix1 q)

/-- An update layer's result as one array. -/
def update (N : ℕ) (agg h : (⟨2, ![N, 256]⟩ : Shape).Idx → EReal) (W : (⟨2, ![256, 256]⟩ : Shape).Idx → EReal)
    (b : (⟨1, ![256]⟩ : Shape).Idx → EReal) : (⟨2, ![N, 256]⟩ : Shape).Idx → EReal :=
  fun i => updateAt N agg h W b (i 0) (i 1)

theorem update_ix2 (N : ℕ) (agg h : (⟨2, ![N, 256]⟩ : Shape).Idx → EReal) (W : (⟨2, ![256, 256]⟩ : Shape).Idx → EReal)
    (b : (⟨1, ![256]⟩ : Shape).Idx → EReal) (p : Fin N) (q : Fin 256) :
    update N agg h W b (ix2 p q) = updateAt N agg h W b p q := rfl

end Cert.GnnSpec

end
-- ==== Proof.LibPlainDot.lean ====
/-
  A plain matrix product [M, K] × [K, N] → [M, N] (no batch axis, the left operand's axis 1 contracted with the right
  operand's axis 0), read at an index over the extended reals: the entry (r, q) is the sum over k of lhs (r, k) · rhs (k, q),
  for a kernel's `tpu.matmul` into a zero accumulator and for the host's `dot_general` alike. Stated for any M, K, N and any
  operand formats, over the library's dimension numbers `DotDims.plain`; a printed record with the same fields is that by `rfl`.
-/
import Idealize.ShloMosaic.PureOps.Ideal.Laws
import Idealize.ShloMosaic.Lib.ValueIdx

namespace Idealize.ShloMosaic.LibPlainDot

open Idealize.ShloMosaic.ValueIdx

variable {φ₁ φ₂ : FTy}

/-- The left operand's index at output (r, q) and contraction coordinate k is (r, k). -/
theorem plain_lhsIdx (M K N : Nat) (r : Fin M) (q : Fin N) (k : Fin K) :
    (DotDims.plain M K N).lhsIdx (ix2 r q) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r q) _).trans hk

/-- The right operand's index at output (r, q) and contraction coordinate k is (k, q). -/
theorem plain_rhsIdx (M K N : Nat) (r : Fin M) (q : Fin N) (k : Fin K) :
    (DotDims.plain M K N).rhsIdx (ix2 r q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 r q) _).trans hk
  | ⟨1, _⟩ => rfl

/-- A kernel's matrix product into a zero accumulator, at (r, q): the sum over k of lhs (r, k) · rhs (k, q). -/
theorem matmul_plain_apply (M K N : Nat) (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's `dot_general` of the same dimension numbers, at (r, q): the same sum. -/
theorem dotGeneral_plain_apply (M K N : Nat) (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Idealize.ShloMosaic.LibPlainDot
-- ==== Proof.LibColumns.lean ====
/-
  Re-layouts of small ranks read at an index, in the style of the value library's own lemmas: a block with two
  leading unit axes viewed as a matrix and back, a vector made a column, a column broadcast over the columns of a
  matrix, and a row sum of a matrix at the ideal values as a plain sum over the row.
-/
import Idealize.ShloMosaic.Lib.ValueLayout
import Idealize.ShloMosaic.PureOps.Ideal.Laws

namespace Idealize.ShloMosaic.ValueIdx

open Idealize.ShloMosaic

variable {α : Type}

/-- A `[1, 1, a, b]` block viewed `[a, b]` reads, at `(p, q)`, the block at `(0, 0, p, q)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `[a, b]` matrix stored as a `[1, 1, a, b]` block reads, at `(u, v, p, q)`, the matrix at `(p, q)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (p : Fin a) (q : Fin b) :
    shapeCast ⟨4, ![1, 1, a, b]⟩ x h (ix4 u v p q) = x (ix2 p q) :=
  shapeCast_apply x h _ _ (by
    have hu : u.val = 0 := by omega
    have hv : v.val = 0 := by omega
    rw [Shape.rowMajor_val_four, Shape.rowMajor_val_two]
    show p.val * b + q.val = ((u.val * 1 + v.val) * a + p.val) * b + q.val
    rw [hu, hv]; simp)

/-- An `[a]` vector made a column `[a, 1]` reads, at `(p, z)`, the vector at `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz]; simp)

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the sum of a matrix along its rows is, at row `p`, the plain sum of the row's entries. -/
theorem rowSum_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ X acc h hφ hacc (ix1 p) = ∑ k : Fin b, X (ix2 p k) :=
  (Ideal.multiReduction_add_single X acc h hφ hacc (ix1 p)).trans
    (Finset.sum_congr rfl fun k _ => congrArg X (funext fun ax => Fin.ext (by
      match ax with
      | ⟨0, _⟩ => rfl
      | ⟨1, _⟩ => rfl)))

/-- At the ideal values the maximum of a matrix along its rows is, at row `p`, the fold of `max` over the row from the
    initial word's value. -/
theorem rowMax_apply {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ X acc h hφ hacc (ix1 p)
      = (Finset.univ : Finset (Fin b)).fold max (Ideal.ofBits φ acc) fun k => X (ix2 p k) :=
  (Ideal.multiReduction_maximumf_single X acc h hφ hacc (ix1 p)).trans
    (congrArg (Finset.fold max (Ideal.ofBits φ acc) · Finset.univ) (funext fun k => congrArg X (funext fun ax => Fin.ext (by
      match ax with
      | ⟨0, _⟩ => rfl
      | ⟨1, _⟩ => rfl))))

end Idealize.ShloMosaic.ValueIdx
-- ==== Proof.Payloads.lean ====
/-
  The six kernel bodies read at an entry of their output block, on the extended reals.

  Each body stores one value: a pure term of the blocks it loaded (the generated skeleton's payload). Read at entry
  `(p, q)` of the `[3000, 256]` block it is the layer's formula of `LayerSpec` at the blocks: every pointwise
  operation acts entry by entry, a change of float format is the identity at the ideal values, a broadcast or a
  re-layout reads one entry of its operand, and the matrix product into a zero accumulator is the sum over the
  contracted axis of the products.
-/
import proofs.«156761_j26216480375265_2_alg».proof.Proof.Gen.KernelIdeal.Skeleton
import proofs.«156761_j26216480375265_2_alg».proof.Proof.LayerSpec
import proofs.«156761_j26216480375265_2_alg».proof.Proof.LibPlainDot
import proofs.«156761_j26216480375265_2_alg».proof.Proof.LibColumns
import Idealize.ShloMosaic.Lib.Pipeline.Value
import Idealize.ShloMosaic.Lib.ValueLayout
import Idealize.ShloMosaic.PureOps.Ideal.Laws

noncomputable section

namespace Cert.KernelIdeal.Bridge

open Cert.KernelIdeal Cert.KernelIdeal.Gen Cert.GnnSpec
open Idealize.ShloMosaic Idealize.ShloMosaic.ValueIdx

/-- Every body loads and stores whole blocks: the rectangles it accesses sit at offset zero on every axis. -/
theorem zero2 : (![0, 0] : Fin 2 → Nat) = fun _ => 0 := funext fun a => by fin_cases a <;> rfl
theorem zero1 : (![0] : Fin 1 → Nat) = fun _ => 0 := funext fun a => by fin_cases a <;> rfl

/-- The encoder's body at entry `(p, q)` of a block of 3000 rows (region 0): the hidden unit `k` of row `p` is
    `max (x(p,0) · w1(0,k) + b1(k)) 0` — the input column and the first layer's row each broadcast over the
    `[3000, 128]` block, the bias made a row and broadcast —, the second layer is the plain sum over the 128 hidden
    units of hidden · w2(k,q), and the bias at `q` is added. -/
theorem encode_payload0 (x : Vec Ideal S3000x1 .f32) (w1 : Vec Ideal S1x128 .f32) (b1 : Vec Ideal S128 .f32)
    (w2 : Vec Ideal S128x256 .f32) (b2 : Vec Ideal S256 .f32) (p : Fin 3000) (q : Fin 256) :
    (k0_pay1 (F := Ideal) x w1 b1 w2 b2 (ix2 p q) : EReal) = encodeAt 3000 x w1 b1 w2 b2 p q := by
  unfold k0_pay1 encodeAt
  show (_ : EReal) + _ = _ + _
  refine congrArg₂ (fun u v : EReal => u + v) ?_ ?_
  · refine (LibPlainDot.matmul_plain_apply 3000 128 256 none _ _ p q).trans (Finset.sum_congr rfl fun k _ => ?_)
    show max ((_ : EReal) * _ + _) _ * _ = max (_ * _ + _) _ * _
    refine congrArg₂ (fun u v : EReal => u * v) (congrArg₂ (fun u v : EReal => max u v) ?_ rfl) rfl
    refine congrArg₂ (fun u v : EReal => u + v) (congrArg₂ (fun u v : EReal => u * v) ?_ ?_) ?_
    · exact broadcastTo_a1_ab_apply x _ p k
    · exact broadcastTo_1b_ab_apply w1 _ p k
    · exact (broadcastTo_1b_ab_apply _ _ p k).trans (shapeCast_a_1a_apply b1 _ (0 : Fin 1) k)
  · exact (broadcastTo_1b_ab_apply _ _ p q).trans (shapeCast_a_1a_apply b2 _ (0 : Fin 1) q)

/-- The encoder's body at entry `(p, q)` of a block of 3000 rows (region 1): the hidden unit `k` of row `p` is
    `max (x(p,0) · w1(0,k) + b1(k)) 0` — the input column and the first layer's row each broadcast over the
    `[3000, 128]` block, the bias made a row and broadcast —, the second layer is the plain sum over the 128 hidden
    units of hidden · w2(k,q), and the bias at `q` is added. -/
theorem encode_payload1 (x : Vec Ideal S3000x1 .f32) (w1 : Vec Ideal S1x128 .f32) (b1 : Vec Ideal S128 .f32)
    (w2 : Vec Ideal S128x256 .f32) (b2 : Vec Ideal S256 .f32) (p : Fin 3000) (q : Fin 256) :
    (k1_pay1 (F := Ideal) x w1 b1 w2 b2 (ix2 p q) : EReal) = encodeAt 3000 x w1 b1 w2 b2 p q := by
  unfold k1_pay1 encodeAt
  show (_ : EReal) + _ = _ + _
  refine congrArg₂ (fun u v : EReal => u + v) ?_ ?_
  · refine (LibPlainDot.matmul_plain_apply 3000 128 256 none _ _ p q).trans (Finset.sum_congr rfl fun k _ => ?_)
    show max ((_ : EReal) * _ + _) _ * _ = max (_ * _ + _) _ * _
    refine congrArg₂ (fun u v : EReal => u * v) (congrArg₂ (fun u v : EReal => max u v) ?_ rfl) rfl
    refine congrArg₂ (fun u v : EReal => u + v) (congrArg₂ (fun u v : EReal => u * v) ?_ ?_) ?_
    · exact broadcastTo_a1_ab_apply x _ p k
    · exact broadcastTo_1b_ab_apply w1 _ p k
    · exact (broadcastTo_1b_ab_apply _ _ p k).trans (shapeCast_a_1a_apply b1 _ (0 : Fin 1) k)
  · exact (broadcastTo_1b_ab_apply _ _ p q).trans (shapeCast_a_1a_apply b2 _ (0 : Fin 1) q)

/-- The update layer's body at entry `(p, q)` of a block of 3000 rows (region 2): the product of the row
    `agg(p,·) + h(p,·)` with column `q` of the weight, plus the bias at `q`. The re-layouts of a block onto its own
    shape are the identity, the change of float format is the identity on the extended reals, and the matrix
    product into a zero accumulator is the plain sum over the contracted axis. -/
theorem update_payload2 (agg h : Vec Ideal S3000x256 .f32) (W : Vec Ideal S256x256 .f32) (b : Vec Ideal S256 .f32)
    (p : Fin 3000) (q : Fin 256) :
    (k2_pay1 (F := Ideal) agg h W b (ix2 p q) : EReal) = updateAt 3000 agg h W b p q := by
  unfold k2_pay1 updateAt
  show (_ : EReal) + _ = _ + _
  refine congrArg₂ (fun u v : EReal => u + v) ?_ ?_
  · refine (LibPlainDot.matmul_plain_apply 3000 256 256 none _ _ p q).trans (Finset.sum_congr rfl fun k _ => ?_)
    show ((_ : EReal) + _) * _ = (_ + _) * _
    refine congrArg₂ (fun u v : EReal => u * v) (congrArg₂ (fun u v : EReal => u + v) ?_ ?_) ?_
    · exact congrFun (shapeCast_self agg _) (ix2 p k)
    · exact congrFun (shapeCast_self h _) (ix2 p k)
    · exact congrFun (shapeCast_self W _) (ix2 k q)
  · refine (broadcastTo_1b_ab_apply _ _ p q).trans ((shapeCast_a_1a_apply _ _ (0 : Fin 1) q).trans ?_)
    exact congrFun (shapeCast_self b _) (ix1 q)

/-- The update layer's body at entry `(p, q)` of a block of 3000 rows (region 3): the product of the row
    `agg(p,·) + h(p,·)` with column `q` of the weight, plus the bias at `q`. The re-layouts of a block onto its own
    shape are the identity, the change of float format is the identity on the extended reals, and the matrix
    product into a zero accumulator is the plain sum over the contracted axis. -/
theorem update_payload3 (agg h : Vec Ideal S3000x256 .f32) (W : Vec Ideal S256x256 .f32) (b : Vec Ideal S256 .f32)
    (p : Fin 3000) (q : Fin 256) :
    (k3_pay1 (F := Ideal) agg h W b (ix2 p q) : EReal) = updateAt 3000 agg h W b p q := by
  unfold k3_pay1 updateAt
  show (_ : EReal) + _ = _ + _
  refine congrArg₂ (fun u v : EReal => u + v) ?_ ?_
  · refine (LibPlainDot.matmul_plain_apply 3000 256 256 none _ _ p q).trans (Finset.sum_congr rfl fun k _ => ?_)
    show ((_ : EReal) + _) * _ = (_ + _) * _
    refine congrArg₂ (fun u v : EReal => u * v) (congrArg₂ (fun u v : EReal => u + v) ?_ ?_) ?_
    · exact congrFun (shapeCast_self agg _) (ix2 p k)
    · exact congrFun (shapeCast_self h _) (ix2 p k)
    · exact congrFun (shapeCast_self W _) (ix2 k q)
  · refine (broadcastTo_1b_ab_apply _ _ p q).trans ((shapeCast_a_1a_apply _ _ (0 : Fin 1) q).trans ?_)
    exact congrFun (shapeCast_self b _) (ix1 q)

/-- The update layer's body at entry `(p, q)` of a block of 3000 rows (region 4): the product of the row
    `agg(p,·) + h(p,·)` with column `q` of the weight, plus the bias at `q`. The re-layouts of a block onto its own
    shape are the identity, the change of float format is the identity on the extended reals, and the matrix
    product into a zero accumulator is the plain sum over the contracted axis. -/
theorem update_payload4 (agg h : Vec Ideal S3000x256 .f32) (W : Vec Ideal S256x256 .f32) (b : Vec Ideal S256 .f32)
    (p : Fin 3000) (q : Fin 256) :
    (k4_pay1 (F := Ideal) agg h W b (ix2 p q) : EReal) = updateAt 3000 agg h W b p q := by
  unfold k4_pay1 updateAt
  show (_ : EReal) + _ = _ + _
  refine congrArg₂ (fun u v : EReal => u + v) ?_ ?_
  · refine (LibPlainDot.matmul_plain_apply 3000 256 256 none _ _ p q).trans (Finset.sum_congr rfl fun k _ => ?_)
    show ((_ : EReal) + _) * _ = (_ + _) * _
    refine congrArg₂ (fun u v : EReal => u * v) (congrArg₂ (fun u v : EReal => u + v) ?_ ?_) ?_
    · exact congrFun (shapeCast_self agg _) (ix2 p k)
    · exact congrFun (shapeCast_self h _) (ix2 p k)
    · exact congrFun (shapeCast_self W _) (ix2 k q)
  · refine (broadcastTo_1b_ab_apply _ _ p q).trans ((shapeCast_a_1a_apply _ _ (0 : Fin 1) q).trans ?_)
    exact congrFun (shapeCast_self b _) (ix1 q)

/-- The update layer's body at entry `(p, q)` of a block of 3000 rows (region 5): the product of the row
    `agg(p,·) + h(p,·)` with column `q` of the weight, plus the bias at `q`. The re-layouts of a block onto its own
    shape are the identity, the change of float format is the identity on the extended reals, and the matrix
    product into a zero accumulator is the plain sum over the contracted axis. -/
theorem update_payload5 (agg h : Vec Ideal S3000x256 .f32) (W : Vec Ideal S256x256 .f32) (b : Vec Ideal S256 .f32)
    (p : Fin 3000) (q : Fin 256) :
    (k5_pay1 (F := Ideal) agg h W b (ix2 p q) : EReal) = updateAt 3000 agg h W b p q := by
  unfold k5_pay1 updateAt
  show (_ : EReal) + _ = _ + _
  refine congrArg₂ (fun u v : EReal => u + v) ?_ ?_
  · refine (LibPlainDot.matmul_plain_apply 3000 256 256 none _ _ p q).trans (Finset.sum_congr rfl fun k _ => ?_)
    show ((_ : EReal) + _) * _ = (_ + _) * _
    refine congrArg₂ (fun u v : EReal => u * v) (congrArg₂ (fun u v : EReal => u + v) ?_ ?_) ?_
    · exact congrFun (shapeCast_self agg _) (ix2 p k)
    · exact congrFun (shapeCast_self h _) (ix2 p k)
    · exact congrFun (shapeCast_self W _) (ix2 k q)
  · refine (broadcastTo_1b_ab_apply _ _ p q).trans ((shapeCast_a_1a_apply _ _ (0 : Fin 1) q).trans ?_)
    exact congrFun (shapeCast_self b _) (ix1 q)

end Cert.KernelIdeal.Bridge

end
-- ==== Proof.RegionEncode0.lean ====
/-
  Encoder region 0: the array it leaves is the encoder of the arrays it finds.

  The region's grid has 10 points. At point `t` the input column and the output are staged as rows
  `3000·t … 3000·t + 2999`; the two layers' weights and biases are staged whole at every point. The body's value at
  entry `(p, q)` of its block depends on row `p` of the input block only, so block `t` of the output is block `t`
  of the encoder's whole-array result; the 10 blocks tile the `[30000, 256]` array, and it ends holding that result.
-/
import proofs.«156761_j26216480375265_2_alg».proof.Proof.Gen.KernelIdeal.Frame
import proofs.«156761_j26216480375265_2_alg».proof.Proof.Payloads
import Idealize.ShloMosaic.Lib.Pipeline.Value

set_option maxRecDepth 16384

noncomputable section

namespace Cert.KernelIdeal.Bridge

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's index maps over its 10 grid points: the input column and the output sit at block row `t`; the
    weights and biases at block 0. -/
theorem index_maps0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ t.val < 10 :=
  (by decide +kernel : ∀ t : Fin grid0.N, _)

/-- The body at entry `(p, q)` of a block whose rows are rows `r, …` of the arrays: if entry `p` of the input
    block is entry `r` of the input column and the weight and bias blocks are the arrays, the body's value is the
    encoder's entry `(r, q)`. -/
theorem encode_block0 (x : Vec Ideal S3000x1 .f32) (w1 : Vec Ideal S1x128 .f32) (b1 : Vec Ideal S128 .f32)
    (w2 : Vec Ideal S128x256 .f32) (b2 : Vec Ideal S256 .f32)
    (X : (⟨2, ![30000, 1]⟩ : Shape).Idx → EReal) (W1 : (⟨2, ![1, 128]⟩ : Shape).Idx → EReal)
    (B1 : (⟨1, ![128]⟩ : Shape).Idx → EReal) (W2 : (⟨2, ![128, 256]⟩ : Shape).Idx → EReal)
    (B2 : (⟨1, ![256]⟩ : Shape).Idx → EReal) (p : Fin 3000) (q : Fin 256) (r : Fin 30000)
    (hX : x (ix2 p (0 : Fin 1)) = X (ix2 r (0 : Fin 1)))
    (hW1 : ∀ k : Fin 128, w1 (ix2 (0 : Fin 1) k) = W1 (ix2 (0 : Fin 1) k))
    (hB1 : ∀ k : Fin 128, b1 (ix1 k) = B1 (ix1 k)) (hW2 : ∀ k : Fin 128, w2 (ix2 k q) = W2 (ix2 k q))
    (hB2 : b2 (ix1 q) = B2 (ix1 q)) :
    (k0_pay1 (F := Ideal) x w1 b1 w2 b2 (ix2 p q) : EReal) = encode 30000 X W1 B1 W2 B2 (ix2 r q) := by
  rw [encode_payload0, encode_ix2]
  unfold encodeAt
  rw [hX, hB2]
  exact congrArg (fun u : EReal => u + B2 (ix1 q)) (Finset.sum_congr rfl fun k _ => by rw [hW1 k, hB1 k, hW2 k])

/-- WHAT POINT `t` WRITES BACK is block `t` of the encoder's result of the arrays the region finds. -/
theorem flushed_encode0 (c : Dev nD) (t : Fin cfg0.N) :
    (dat0 V c).flushed 5 t = ((cfg0.win 5).blk t).view.read (Elt Ideal)
      (encode 30000 (V c main_arg0) (V c main_arg3) (V c main_arg4) (V c main_arg5) (V c main_arg6)) := by
  show (cfg0.win 5).cut (grid0.coords t) ((dat0 V c).after 5 t) = _
  rw [after0_5]
  unfold out0_5
  rw [View.canon_unit_zero zero2]
  simp only [View.ld_unit_zero (S := S3000x1) zero2, View.ld_unit_zero (S := S1x128) zero2, View.ld_unit_zero (S := S128) zero1,
    View.ld_unit_zero (S := S128x256) zero2, View.ld_unit_zero (S := S256) zero1]
  obtain ⟨e00, e01, e10, e11, e20, e30, e31, e40, e50, e51, ht⟩ := index_maps0 t
  funext j
  have hj0 : (j 0).val < 3000 := (j 0).isLt
  have hj1 : (j 1).val < 256 := (j 1).isLt
  show (k0_pay1 (F := Ideal) (iblk0 V c 0 t) (iblk0 V c 1 t) (iblk0 V c 2 t) (iblk0 V c 3 t) (iblk0 V c 4 t) j : EReal)
      = encode 30000 (V c main_arg0) (V c main_arg3) (V c main_arg4) (V c main_arg5) (V c main_arg6) (((cfg0.win 5).blk t).view.emb j)
  refine (congrArg (k0_pay1 (F := Ideal) (iblk0 V c 0 t) (iblk0 V c 1 t) (iblk0 V c 2 t) (iblk0 V c 3 t) (iblk0 V c 4 t))
    (eq_ix2 (n0 := 3000) (n1 := 256) j)).trans ?_
  have hi : ((cfg0.win 5).blk t).view.emb j
      = ix2 (⟨t.val * 3000 + (j 0).val, by omega⟩ : Fin 30000) (⟨(j 1).val, hj1⟩ : Fin 256) := by
    funext a; apply Fin.ext
    match a with
    | ⟨0, _⟩ => show win0_5.index t (0 : Fin 2) * 3000 + 1 * (j 0).val = t.val * 3000 + (j 0).val; omega
    | ⟨1, _⟩ => show win0_5.index t (1 : Fin 2) * 256 + 1 * (j 1).val = (j 1).val; omega
  rw [hi]
  refine encode_block0 (iblk0 V c 0 t) (iblk0 V c 1 t) (iblk0 V c 2 t) (iblk0 V c 3 t) (iblk0 V c 4 t)
    (V c main_arg0) (V c main_arg3) (V c main_arg4) (V c main_arg5) (V c main_arg6) ⟨(j 0).val, hj0⟩ ⟨(j 1).val, hj1⟩
    ⟨t.val * 3000 + (j 0).val, by omega⟩ ?_ (fun k => ?_) (fun k => ?_) (fun k => ?_) ?_
  · show V c main_arg0 (((cfg0.win 0).blk t).view.emb (ix2 (⟨(j 0).val, hj0⟩ : Fin 3000) (0 : Fin 1))) = _
    refine congrArg (V c main_arg0) (funext fun a => Fin.ext ?_)
    match a with
    | ⟨0, _⟩ => show win0_0.index t (0 : Fin 2) * 3000 + 1 * (j 0).val = t.val * 3000 + (j 0).val; omega
    | ⟨1, _⟩ => show win0_0.index t (1 : Fin 2) * 1 + 1 * 0 = 0; omega
  · show V c main_arg3 (((cfg0.win 1).blk t).view.emb (ix2 (0 : Fin 1) k)) = _
    refine congrArg (V c main_arg3) (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  · show V c main_arg4 (((cfg0.win 2).blk t).view.emb (ix1 k)) = _
    refine congrArg (V c main_arg4) (funext fun a => Fin.ext ?_)
    match a with
    | ⟨0, _⟩ => show win0_2.index t (0 : Fin 1) * 128 + 1 * k.val = k.val; omega
  · show V c main_arg5 (((cfg0.win 3).blk t).view.emb (ix2 k (⟨(j 1).val, hj1⟩ : Fin 256))) = _
    refine congrArg (V c main_arg5) (funext fun a => Fin.ext ?_)
    match a with
    | ⟨0, _⟩ => show win0_3.index t (0 : Fin 2) * 128 + 1 * k.val = k.val; omega
    | ⟨1, _⟩ => show win0_3.index t (1 : Fin 2) * 256 + 1 * (j 1).val = (j 1).val; omega
  · show V c main_arg6 (((cfg0.win 4).blk t).view.emb (ix1 (⟨(j 1).val, hj1⟩ : Fin 256))) = _
    refine congrArg (V c main_arg6) (funext fun a => Fin.ext ?_)
    match a with
    | ⟨0, _⟩ => show win0_4.index t (0 : Fin 1) * 256 + 1 * (j 1).val = (j 1).val; omega

/-- An index of the array is in point `t`'s block iff each coordinate is in the block's range on its axis. -/
theorem mem_block0 (t : Fin cfg0.N) (i : S30000x256.Idx) :
    i ∈ ((cfg0.win 5).blk t).view.set ↔ ∀ a : Fin 2, win0_5.index t a * S3000x256.size a ≤ (i a).val
      ∧ (i a).val < win0_5.index t a * S3000x256.size a + S3000x256.size a := by
  show i ∈ ((View.whole main_v0).slice (win0_5.rect t)).set ↔ _
  rw [View.set_slice_whole, Rect.mem_set_unit]
  exact Iff.rfl

/-- The 10 blocks tile the array: row `r` lies in the block of point `r / 3000`. -/
theorem cover0 (i : S30000x256.Idx) :
    ∃ t : Fin cfg0.N, (cfg0.win 5).flush t = true ∧ i ∈ ((cfg0.win 5).blk t).view.set := by
  have hi0 : (i 0).val < 30000 := (i 0).isLt
  have hi1 : (i 1).val < 256 := (i 1).isLt
  have hN : grid0.N = 10 := N_0
  have hlt : (i 0).val / 3000 < grid0.N := by omega
  obtain ⟨e00, e01, e10, e11, e20, e30, e31, e40, e50, e51, ht⟩ := index_maps0 ⟨(i 0).val / 3000, hlt⟩
  have e50' : win0_5.index ⟨(i 0).val / 3000, hlt⟩ (0 : Fin 2) = (i 0).val / 3000 := e50
  refine ⟨⟨(i 0).val / 3000, hlt⟩, flush0_5 _, ?_⟩
  rw [mem_block0]
  intro a
  match a with
  | ⟨0, _⟩ =>
    show win0_5.index ⟨(i 0).val / 3000, hlt⟩ (0 : Fin 2) * 3000 ≤ (i 0).val
      ∧ (i 0).val < win0_5.index ⟨(i 0).val / 3000, hlt⟩ (0 : Fin 2) * 3000 + 3000
    omega
  | ⟨1, _⟩ =>
    show win0_5.index ⟨(i 0).val / 3000, hlt⟩ (1 : Fin 2) * 256 ≤ (i 1).val
      ∧ (i 1).val < win0_5.index ⟨(i 0).val / 3000, hlt⟩ (1 : Fin 2) * 256 + 256
    omega

/-- THE ARRAY after the region: the encoder of the arrays the region finds. -/
theorem final_encode0 (c : Dev nD) :
    (dat0 V c).arrAt 5 cfg0.N
      = encode 30000 (V c main_arg0) (V c main_arg3) (V c main_arg4) (V c main_arg5) (V c main_arg6) :=
  (dat0 V c).arrAt_eq_of_cover 5 _ (fun t _ => flushed_encode0 V c t) cover0

end Cert.KernelIdeal.Bridge

end
-- ==== Proof.RegionEncode1.lean ====
/-
  Encoder region 1: the array it leaves is the encoder of the arrays it finds.

  The region's grid has 100 points. At point `t` the input column and the output are staged as rows
  `3000·t … 3000·t + 2999`; the two layers' weights and biases are staged whole at every point. The body's value at
  entry `(p, q)` of its block depends on row `p` of the input block only, so block `t` of the output is block `t`
  of the encoder's whole-array result; the 100 blocks tile the `[300000, 256]` array, and it ends holding that result.
-/
import proofs.«156761_j26216480375265_2_alg».proof.Proof.Gen.KernelIdeal.Frame
import proofs.«156761_j26216480375265_2_alg».proof.Proof.Payloads
import Idealize.ShloMosaic.Lib.Pipeline.Value

set_option maxRecDepth 16384

noncomputable section

namespace Cert.KernelIdeal.Bridge

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's index maps over its 100 grid points: the input column and the output sit at block row `t`; the
    weights and biases at block 0. -/
theorem index_maps1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ t.val < 100 :=
  (by decide +kernel : ∀ t : Fin grid1.N, _)

/-- The body at entry `(p, q)` of a block whose rows are rows `r, …` of the arrays: if entry `p` of the input
    block is entry `r` of the input column and the weight and bias blocks are the arrays, the body's value is the
    encoder's entry `(r, q)`. -/
theorem encode_block1 (x : Vec Ideal S3000x1 .f32) (w1 : Vec Ideal S1x128 .f32) (b1 : Vec Ideal S128 .f32)
    (w2 : Vec Ideal S128x256 .f32) (b2 : Vec Ideal S256 .f32)
    (X : (⟨2, ![300000, 1]⟩ : Shape).Idx → EReal) (W1 : (⟨2, ![1, 128]⟩ : Shape).Idx → EReal)
    (B1 : (⟨1, ![128]⟩ : Shape).Idx → EReal) (W2 : (⟨2, ![128, 256]⟩ : Shape).Idx → EReal)
    (B2 : (⟨1, ![256]⟩ : Shape).Idx → EReal) (p : Fin 3000) (q : Fin 256) (r : Fin 300000)
    (hX : x (ix2 p (0 : Fin 1)) = X (ix2 r (0 : Fin 1)))
    (hW1 : ∀ k : Fin 128, w1 (ix2 (0 : Fin 1) k) = W1 (ix2 (0 : Fin 1) k))
    (hB1 : ∀ k : Fin 128, b1 (ix1 k) = B1 (ix1 k)) (hW2 : ∀ k : Fin 128, w2 (ix2 k q) = W2 (ix2 k q))
    (hB2 : b2 (ix1 q) = B2 (ix1 q)) :
    (k1_pay1 (F := Ideal) x w1 b1 w2 b2 (ix2 p q) : EReal) = encode 300000 X W1 B1 W2 B2 (ix2 r q) := by
  rw [encode_payload1, encode_ix2]
  unfold encodeAt
  rw [hX, hB2]
  exact congrArg (fun u : EReal => u + B2 (ix1 q)) (Finset.sum_congr rfl fun k _ => by rw [hW1 k, hB1 k, hW2 k])

/-- WHAT POINT `t` WRITES BACK is block `t` of the encoder's result of the arrays the region finds. -/
theorem flushed_encode1 (c : Dev nD) (t : Fin cfg1.N) :
    (dat1 V c).flushed 5 t = ((cfg1.win 5).blk t).view.read (Elt Ideal)
      (encode 300000 (V c main_arg1) (V c main_arg7) (V c main_arg8) (V c main_arg9) (V c main_arg10)) := by
  show (cfg1.win 5).cut (grid1.coords t) ((dat1 V c).after 5 t) = _
  rw [after1_5]
  unfold out1_5
  rw [View.canon_unit_zero zero2]
  simp only [View.ld_unit_zero (S := S3000x1) zero2, View.ld_unit_zero (S := S1x128) zero2, View.ld_unit_zero (S := S128) zero1,
    View.ld_unit_zero (S := S128x256) zero2, View.ld_unit_zero (S := S256) zero1]
  obtain ⟨e00, e01, e10, e11, e20, e30, e31, e40, e50, e51, ht⟩ := index_maps1 t
  funext j
  have hj0 : (j 0).val < 3000 := (j 0).isLt
  have hj1 : (j 1).val < 256 := (j 1).isLt
  show (k1_pay1 (F := Ideal) (iblk1 V c 0 t) (iblk1 V c 1 t) (iblk1 V c 2 t) (iblk1 V c 3 t) (iblk1 V c 4 t) j : EReal)
      = encode 300000 (V c main_arg1) (V c main_arg7) (V c main_arg8) (V c main_arg9) (V c main_arg10) (((cfg1.win 5).blk t).view.emb j)
  refine (congrArg (k1_pay1 (F := Ideal) (iblk1 V c 0 t) (iblk1 V c 1 t) (iblk1 V c 2 t) (iblk1 V c 3 t) (iblk1 V c 4 t))
    (eq_ix2 (n0 := 3000) (n1 := 256) j)).trans ?_
  have hi : ((cfg1.win 5).blk t).view.emb j
      = ix2 (⟨t.val * 3000 + (j 0).val, by omega⟩ : Fin 300000) (⟨(j 1).val, hj1⟩ : Fin 256) := by
    funext a; apply Fin.ext
    match a with
    | ⟨0, _⟩ => show win1_5.index t (0 : Fin 2) * 3000 + 1 * (j 0).val = t.val * 3000 + (j 0).val; omega
    | ⟨1, _⟩ => show win1_5.index t (1 : Fin 2) * 256 + 1 * (j 1).val = (j 1).val; omega
  rw [hi]
  refine encode_block1 (iblk1 V c 0 t) (iblk1 V c 1 t) (iblk1 V c 2 t) (iblk1 V c 3 t) (iblk1 V c 4 t)
    (V c main_arg1) (V c main_arg7) (V c main_arg8) (V c main_arg9) (V c main_arg10) ⟨(j 0).val, hj0⟩ ⟨(j 1).val, hj1⟩
    ⟨t.val * 3000 + (j 0).val, by omega⟩ ?_ (fun k => ?_) (fun k => ?_) (fun k => ?_) ?_
  · show V c main_arg1 (((cfg1.win 0).blk t).view.emb (ix2 (⟨(j 0).val, hj0⟩ : Fin 3000) (0 : Fin 1))) = _
    refine congrArg (V c main_arg1) (funext fun a => Fin.ext ?_)
    match a with
    | ⟨0, _⟩ => show win1_0.index t (0 : Fin 2) * 3000 + 1 * (j 0).val = t.val * 3000 + (j 0).val; omega
    | ⟨1, _⟩ => show win1_0.index t (1 : Fin 2) * 1 + 1 * 0 = 0; omega
  · show V c main_arg7 (((cfg1.win 1).blk t).view.emb (ix2 (0 : Fin 1) k)) = _
    refine congrArg (V c main_arg7) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg8 (((cfg1.win 2).blk t).view.emb (ix1 k)) = _
    refine congrArg (V c main_arg8) (funext fun a => Fin.ext ?_)
    match a with
    | ⟨0, _⟩ => show win1_2.index t (0 : Fin 1) * 128 + 1 * k.val = k.val; omega
  · show V c main_arg9 (((cfg1.win 3).blk t).view.emb (ix2 k (⟨(j 1).val, hj1⟩ : Fin 256))) = _
    refine congrArg (V c main_arg9) (funext fun a => Fin.ext ?_)
    match a with
    | ⟨0, _⟩ => show win1_3.index t (0 : Fin 2) * 128 + 1 * k.val = k.val; omega
    | ⟨1, _⟩ => show win1_3.index t (1 : Fin 2) * 256 + 1 * (j 1).val = (j 1).val; omega
  · show V c main_arg10 (((cfg1.win 4).blk t).view.emb (ix1 (⟨(j 1).val, hj1⟩ : Fin 256))) = _
    refine congrArg (V c main_arg10) (funext fun a => Fin.ext ?_)
    match a with
    | ⟨0, _⟩ => show win1_4.index t (0 : Fin 1) * 256 + 1 * (j 1).val = (j 1).val; omega

/-- An index of the array is in point `t`'s block iff each coordinate is in the block's range on its axis. -/
theorem mem_block1 (t : Fin cfg1.N) (i : S300000x256.Idx) :
    i ∈ ((cfg1.win 5).blk t).view.set ↔ ∀ a : Fin 2, win1_5.index t a * S3000x256.size a ≤ (i a).val
      ∧ (i a).val < win1_5.index t a * S3000x256.size a + S3000x256.size a := by
  show i ∈ ((View.whole main_v1).slice (win1_5.rect t)).set ↔ _
  rw [View.set_slice_whole, Rect.mem_set_unit]
  exact Iff.rfl

/-- The 100 blocks tile the array: row `r` lies in the block of point `r / 3000`. -/
theorem cover1 (i : S300000x256.Idx) :
    ∃ t : Fin cfg1.N, (cfg1.win 5).flush t = true ∧ i ∈ ((cfg1.win 5).blk t).view.set := by
  have hi0 : (i 0).val < 300000 := (i 0).isLt
  have hi1 : (i 1).val < 256 := (i 1).isLt
  have hN : grid1.N = 100 := N_1
  have hlt : (i 0).val / 3000 < grid1.N := by omega
  obtain ⟨e00, e01, e10, e11, e20, e30, e31, e40, e50, e51, ht⟩ := index_maps1 ⟨(i 0).val / 3000, hlt⟩
  have e50' : win1_5.index ⟨(i 0).val / 3000, hlt⟩ (0 : Fin 2) = (i 0).val / 3000 := e50
  refine ⟨⟨(i 0).val / 3000, hlt⟩, flush1_5 _, ?_⟩
  rw [mem_block1]
  intro a
  match a with
  | ⟨0, _⟩ =>
    show win1_5.index ⟨(i 0).val / 3000, hlt⟩ (0 : Fin 2) * 3000 ≤ (i 0).val
      ∧ (i 0).val < win1_5.index ⟨(i 0).val / 3000, hlt⟩ (0 : Fin 2) * 3000 + 3000
    omega
  | ⟨1, _⟩ =>
    show win1_5.index ⟨(i 0).val / 3000, hlt⟩ (1 : Fin 2) * 256 ≤ (i 1).val
      ∧ (i 1).val < win1_5.index ⟨(i 0).val / 3000, hlt⟩ (1 : Fin 2) * 256 + 256
    omega

/-- THE ARRAY after the region: the encoder of the arrays the region finds. -/
theorem final_encode1 (c : Dev nD) :
    (dat1 V c).arrAt 5 cfg1.N
      = encode 300000 (V c main_arg1) (V c main_arg7) (V c main_arg8) (V c main_arg9) (V c main_arg10) :=
  (dat1 V c).arrAt_eq_of_cover 5 _ (fun t _ => flushed_encode1 V c t) cover1

end Cert.KernelIdeal.Bridge

end
-- ==== Proof.RegionUpdate2.lean ====
/-
  Update region 2: the array it leaves is the update layer of the arrays it finds.

  The region's grid has ten points. At point `t` the two row-indexed inputs (the aggregated messages and the node
  states) and the output are staged as rows `3000·t … 3000·t + 2999`, all 256 columns; the weight and the bias are
  staged whole at every point. The body's value at entry `(p, q)` of its block depends on row `p` of the two input
  blocks, column `q` of the weight and entry `q` of the bias, so block `t` of the output is block `t` of the
  layer's whole-array result; the ten blocks tile the `[30000, 256]` array, and it ends holding that result.
-/
import proofs.«156761_j26216480375265_2_alg».proof.Proof.Gen.KernelIdeal.Frame
import proofs.«156761_j26216480375265_2_alg».proof.Proof.Payloads
import Idealize.ShloMosaic.Lib.Pipeline.Value

set_option maxRecDepth 16384

noncomputable section

namespace Cert.KernelIdeal.Bridge

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's index maps over its ten grid points: the row-blocked windows sit at block row `t`, block column 0;
    the whole-array windows at block 0. -/
theorem index_maps2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ t.val < 10 :=
  (by decide +kernel : ∀ t : Fin grid2.N, _)

/-- The body at entry `(p, q)` of a block whose rows are rows `r, …` of the arrays: if row `p` of each input
    block is row `r` of its array and the weight and bias blocks are the arrays, the body's value is the layer's
    entry `(r, q)`. -/
theorem update_block2 (agg h : Vec Ideal S3000x256 .f32) (W : Vec Ideal S256x256 .f32) (b : Vec Ideal S256 .f32)
    (A H : (⟨2, ![30000, 256]⟩ : Shape).Idx → EReal) (Wt : (⟨2, ![256, 256]⟩ : Shape).Idx → EReal)
    (bt : (⟨1, ![256]⟩ : Shape).Idx → EReal) (p : Fin 3000) (q : Fin 256) (r : Fin 30000)
    (hA : ∀ k : Fin 256, agg (ix2 p k) = A (ix2 r k)) (hH : ∀ k : Fin 256, h (ix2 p k) = H (ix2 r k))
    (hW : ∀ k : Fin 256, W (ix2 k q) = Wt (ix2 k q)) (hb : b (ix1 q) = bt (ix1 q)) :
    (k2_pay1 (F := Ideal) agg h W b (ix2 p q) : EReal) = update 30000 A H Wt bt (ix2 r q) := by
  rw [update_payload2, update_ix2]
  unfold updateAt
  rw [hb]
  exact congrArg (fun u : EReal => u + bt (ix1 q)) (Finset.sum_congr rfl fun k _ => by rw [hA k, hH k, hW k])

/-- WHAT POINT `t` WRITES BACK is block `t` of the layer's result of the arrays the region finds. -/
theorem flushed_update2 (c : Dev nD) (t : Fin cfg2.N) :
    (dat2 V c).flushed 4 t = ((cfg2.win 4).blk t).view.read (Elt Ideal)
      (update 30000 (V c main_v20) (V c main_v0) (V c main_v22) (V c main_v24)) := by
  show (cfg2.win 4).cut (grid2.coords t) ((dat2 V c).after 4 t) = _
  rw [after2_4]
  unfold out2_4
  rw [View.canon_unit_zero zero2]
  simp only [View.ld_unit_zero (S := S3000x256) zero2, View.ld_unit_zero (S := S256x256) zero2, View.ld_unit_zero (S := S256) zero1]
  obtain ⟨e00, e01, e10, e11, e20, e21, e30, e40, e41, ht⟩ := index_maps2 t
  funext j
  have hj0 : (j 0).val < 3000 := (j 0).isLt
  have hj1 : (j 1).val < 256 := (j 1).isLt
  show (k2_pay1 (F := Ideal) (iblk2 V c 0 t) (iblk2 V c 1 t) (iblk2 V c 2 t) (iblk2 V c 3 t) j : EReal)
      = update 30000 (V c main_v20) (V c main_v0) (V c main_v22) (V c main_v24) (((cfg2.win 4).blk t).view.emb j)
  refine (congrArg (k2_pay1 (F := Ideal) (iblk2 V c 0 t) (iblk2 V c 1 t) (iblk2 V c 2 t) (iblk2 V c 3 t))
    (eq_ix2 (n0 := 3000) (n1 := 256) j)).trans ?_
  have hi : ((cfg2.win 4).blk t).view.emb j
      = ix2 (⟨t.val * 3000 + (j 0).val, by omega⟩ : Fin 30000) (⟨(j 1).val, hj1⟩ : Fin 256) := by
    funext a; apply Fin.ext
    match a with
    | ⟨0, _⟩ => show win2_4.index t (0 : Fin 2) * 3000 + 1 * (j 0).val = t.val * 3000 + (j 0).val; omega
    | ⟨1, _⟩ => show win2_4.index t (1 : Fin 2) * 256 + 1 * (j 1).val = (j 1).val; omega
  rw [hi]
  refine update_block2 (iblk2 V c 0 t) (iblk2 V c 1 t) (iblk2 V c 2 t) (iblk2 V c 3 t)
    (V c main_v20) (V c main_v0) (V c main_v22) (V c main_v24) ⟨(j 0).val, hj0⟩ ⟨(j 1).val, hj1⟩ ⟨t.val * 3000 + (j 0).val, by omega⟩
    (fun k => ?_) (fun k => ?_) (fun k => ?_) ?_
  · show V c main_v20 (((cfg2.win 0).blk t).view.emb (ix2 (⟨(j 0).val, hj0⟩ : Fin 3000) k)) = _
    refine congrArg (V c main_v20) (funext fun a => Fin.ext ?_)
    match a with
    | ⟨0, _⟩ => show win2_0.index t (0 : Fin 2) * 3000 + 1 * (j 0).val = t.val * 3000 + (j 0).val; omega
    | ⟨1, _⟩ => show win2_0.index t (1 : Fin 2) * 256 + 1 * k.val = k.val; omega
  · show V c main_v0 (((cfg2.win 1).blk t).view.emb (ix2 (⟨(j 0).val, hj0⟩ : Fin 3000) k)) = _
    refine congrArg (V c main_v0) (funext fun a => Fin.ext ?_)
    match a with
    | ⟨0, _⟩ => show win2_1.index t (0 : Fin 2) * 3000 + 1 * (j 0).val = t.val * 3000 + (j 0).val; omega
    | ⟨1, _⟩ => show win2_1.index t (1 : Fin 2) * 256 + 1 * k.val = k.val; omega
  · show V c main_v22 (((cfg2.win 2).blk t).view.emb (ix2 k (⟨(j 1).val, hj1⟩ : Fin 256))) = _
    refine congrArg (V c main_v22) (funext fun a => Fin.ext ?_)
    match a with
    | ⟨0, _⟩ => show win2_2.index t (0 : Fin 2) * 256 + 1 * k.val = k.val; omega
    | ⟨1, _⟩ => show win2_2.index t (1 : Fin 2) * 256 + 1 * (j 1).val = (j 1).val; omega
  · show V c main_v24 (((cfg2.win 3).blk t).view.emb (ix1 (⟨(j 1).val, hj1⟩ : Fin 256))) = _
    refine congrArg (V c main_v24) (funext fun a => Fin.ext ?_)
    match a with
    | ⟨0, _⟩ => show win2_3.index t (0 : Fin 1) * 256 + 1 * (j 1).val = (j 1).val; omega

/-- An index of the array is in point `t`'s block iff each coordinate is in the block's range on its axis. -/
theorem mem_block2 (t : Fin cfg2.N) (i : S30000x256.Idx) :
    i ∈ ((cfg2.win 4).blk t).view.set ↔ ∀ a : Fin 2, win2_4.index t a * S3000x256.size a ≤ (i a).val
      ∧ (i a).val < win2_4.index t a * S3000x256.size a + S3000x256.size a := by
  show i ∈ ((View.whole main_v25).slice (win2_4.rect t)).set ↔ _
  rw [View.set_slice_whole, Rect.mem_set_unit]
  exact Iff.rfl

/-- The ten blocks tile the array: row `r` lies in the block of point `r / 3000`. -/
theorem cover2 (i : S30000x256.Idx) :
    ∃ t : Fin cfg2.N, (cfg2.win 4).flush t = true ∧ i ∈ ((cfg2.win 4).blk t).view.set := by
  have hi0 : (i 0).val < 30000 := (i 0).isLt
  have hi1 : (i 1).val < 256 := (i 1).isLt
  have hN : grid2.N = 10 := N_2
  have hlt : (i 0).val / 3000 < grid2.N := by omega
  obtain ⟨e00, e01, e10, e11, e20, e21, e30, e40, e41, ht⟩ := index_maps2 ⟨(i 0).val / 3000, hlt⟩
  have e40' : win2_4.index ⟨(i 0).val / 3000, hlt⟩ (0 : Fin 2) = (i 0).val / 3000 := e40
  refine ⟨⟨(i 0).val / 3000, hlt⟩, flush2_4 _, ?_⟩
  rw [mem_block2]
  intro a
  match a with
  | ⟨0, _⟩ =>
    show win2_4.index ⟨(i 0).val / 3000, hlt⟩ (0 : Fin 2) * 3000 ≤ (i 0).val
      ∧ (i 0).val < win2_4.index ⟨(i 0).val / 3000, hlt⟩ (0 : Fin 2) * 3000 + 3000
    omega
  | ⟨1, _⟩ =>
    show win2_4.index ⟨(i 0).val / 3000, hlt⟩ (1 : Fin 2) * 256 ≤ (i 1).val
      ∧ (i 1).val < win2_4.index ⟨(i 0).val / 3000, hlt⟩ (1 : Fin 2) * 256 + 256
    omega

/-- THE ARRAY after the region: the update layer of the arrays the region finds. -/
theorem final_update2 (c : Dev nD) :
    (dat2 V c).arrAt 4 cfg2.N = update 30000 (V c main_v20) (V c main_v0) (V c main_v22) (V c main_v24) :=
  (dat2 V c).arrAt_eq_of_cover 4 _ (fun t _ => flushed_update2 V c t) cover2

end Cert.KernelIdeal.Bridge

end
-- ==== Proof.RegionUpdate3.lean ====
/-
  Update region 3: the array it leaves is the update layer of the arrays it finds.

  The region's grid has ten points. At point `t` the two row-indexed inputs (the aggregated messages and the node
  states) and the output are staged as rows `3000·t … 3000·t + 2999`, all 256 columns; the weight and the bias are
  staged whole at every point. The body's value at entry `(p, q)` of its block depends on row `p` of the two input
  blocks, column `q` of the weight and entry `q` of the bias, so block `t` of the output is block `t` of the
  layer's whole-array result; the ten blocks tile the `[30000, 256]` array, and it ends holding that result.
-/
import proofs.«156761_j26216480375265_2_alg».proof.Proof.Gen.KernelIdeal.Frame
import proofs.«156761_j26216480375265_2_alg».proof.Proof.Payloads
import Idealize.ShloMosaic.Lib.Pipeline.Value

set_option maxRecDepth 16384

noncomputable section

namespace Cert.KernelIdeal.Bridge

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's index maps over its ten grid points: the row-blocked windows sit at block row `t`, block column 0;
    the whole-array windows at block 0. -/
theorem index_maps3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0
    ∧ t.val < 10 :=
  (by decide +kernel : ∀ t : Fin grid3.N, _)

/-- The body at entry `(p, q)` of a block whose rows are rows `r, …` of the arrays: if row `p` of each input
    block is row `r` of its array and the weight and bias blocks are the arrays, the body's value is the layer's
    entry `(r, q)`. -/
theorem update_block3 (agg h : Vec Ideal S3000x256 .f32) (W : Vec Ideal S256x256 .f32) (b : Vec Ideal S256 .f32)
    (A H : (⟨2, ![30000, 256]⟩ : Shape).Idx → EReal) (Wt : (⟨2, ![256, 256]⟩ : Shape).Idx → EReal)
    (bt : (⟨1, ![256]⟩ : Shape).Idx → EReal) (p : Fin 3000) (q : Fin 256) (r : Fin 30000)
    (hA : ∀ k : Fin 256, agg (ix2 p k) = A (ix2 r k)) (hH : ∀ k : Fin 256, h (ix2 p k) = H (ix2 r k))
    (hW : ∀ k : Fin 256, W (ix2 k q) = Wt (ix2 k q)) (hb : b (ix1 q) = bt (ix1 q)) :
    (k3_pay1 (F := Ideal) agg h W b (ix2 p q) : EReal) = update 30000 A H Wt bt (ix2 r q) := by
  rw [update_payload3, update_ix2]
  unfold updateAt
  rw [hb]
  exact congrArg (fun u : EReal => u + bt (ix1 q)) (Finset.sum_congr rfl fun k _ => by rw [hA k, hH k, hW k])

/-- WHAT POINT `t` WRITES BACK is block `t` of the layer's result of the arrays the region finds. -/
theorem flushed_update3 (c : Dev nD) (t : Fin cfg3.N) :
    (dat3 V c).flushed 4 t = ((cfg3.win 4).blk t).view.read (Elt Ideal)
      (update 30000 (V c main_v40) (V c main_v25) (V c main_v42) (V c main_v44)) := by
  show (cfg3.win 4).cut (grid3.coords t) ((dat3 V c).after 4 t) = _
  rw [after3_4]
  unfold out3_4
  rw [View.canon_unit_zero zero2]
  simp only [View.ld_unit_zero (S := S3000x256) zero2, View.ld_unit_zero (S := S256x256) zero2, View.ld_unit_zero (S := S256) zero1]
  obtain ⟨e00, e01, e10, e11, e20, e21, e30, e40, e41, ht⟩ := index_maps3 t
  funext j
  have hj0 : (j 0).val < 3000 := (j 0).isLt
  have hj1 : (j 1).val < 256 := (j 1).isLt
  show (k3_pay1 (F := Ideal) (iblk3 V c 0 t) (iblk3 V c 1 t) (iblk3 V c 2 t) (iblk3 V c 3 t) j : EReal)
      = update 30000 (V c main_v40) (V c main_v25) (V c main_v42) (V c main_v44) (((cfg3.win 4).blk t).view.emb j)
  refine (congrArg (k3_pay1 (F := Ideal) (iblk3 V c 0 t) (iblk3 V c 1 t) (iblk3 V c 2 t) (iblk3 V c 3 t))
    (eq_ix2 (n0 := 3000) (n1 := 256) j)).trans ?_
  have hi : ((cfg3.win 4).blk t).view.emb j
      = ix2 (⟨t.val * 3000 + (j 0).val, by omega⟩ : Fin 30000) (⟨(j 1).val, hj1⟩ : Fin 256) := by
    funext a; apply Fin.ext
    match a with
    | ⟨0, _⟩ => show win3_4.index t (0 : Fin 2) * 3000 + 1 * (j 0).val = t.val * 3000 + (j 0).val; omega
    | ⟨1, _⟩ => show win3_4.index t (1 : Fin 2) * 256 + 1 * (j 1).val = (j 1).val; omega
  rw [hi]
  refine update_block3 (iblk3 V c 0 t) (iblk3 V c 1 t) (iblk3 V c 2 t) (iblk3 V c 3 t)
    (V c main_v40) (V c main_v25) (V c main_v42) (V c main_v44) ⟨(j 0).val, hj0⟩ ⟨(j 1).val, hj1⟩ ⟨t.val * 3000 + (j 0).val, by omega⟩
    (fun k => ?_) (fun k => ?_) (fun k => ?_) ?_
  · show V c main_v40 (((cfg3.win 0).blk t).view.emb (ix2 (⟨(j 0).val, hj0⟩ : Fin 3000) k)) = _
    refine congrArg (V c main_v40) (funext fun a => Fin.ext ?_)
    match a with
    | ⟨0, _⟩ => show win3_0.index t (0 : Fin 2) * 3000 + 1 * (j 0).val = t.val * 3000 + (j 0).val; omega
    | ⟨1, _⟩ => show win3_0.index t (1 : Fin 2) * 256 + 1 * k.val = k.val; omega
  · show V c main_v25 (((cfg3.win 1).blk t).view.emb (ix2 (⟨(j 0).val, hj0⟩ : Fin 3000) k)) = _
    refine congrArg (V c main_v25) (funext fun a => Fin.ext ?_)
    match a with
    | ⟨0, _⟩ => show win3_1.index t (0 : Fin 2) * 3000 + 1 * (j 0).val = t.val * 3000 + (j 0).val; omega
    | ⟨1, _⟩ => show win3_1.index t (1 : Fin 2) * 256 + 1 * k.val = k.val; omega
  · show V c main_v42 (((cfg3.win 2).blk t).view.emb (ix2 k (⟨(j 1).val, hj1⟩ : Fin 256))) = _
    refine congrArg (V c main_v42) (funext fun a => Fin.ext ?_)
    match a with
    | ⟨0, _⟩ => show win3_2.index t (0 : Fin 2) * 256 + 1 * k.val = k.val; omega
    | ⟨1, _⟩ => show win3_2.index t (1 : Fin 2) * 256 + 1 * (j 1).val = (j 1).val; omega
  · show V c main_v44 (((cfg3.win 3).blk t).view.emb (ix1 (⟨(j 1).val, hj1⟩ : Fin 256))) = _
    refine congrArg (V c main_v44) (funext fun a => Fin.ext ?_)
    match a with
    | ⟨0, _⟩ => show win3_3.index t (0 : Fin 1) * 256 + 1 * (j 1).val = (j 1).val; omega

/-- An index of the array is in point `t`'s block iff each coordinate is in the block's range on its axis. -/
theorem mem_block3 (t : Fin cfg3.N) (i : S30000x256.Idx) :
    i ∈ ((cfg3.win 4).blk t).view.set ↔ ∀ a : Fin 2, win3_4.index t a * S3000x256.size a ≤ (i a).val
      ∧ (i a).val < win3_4.index t a * S3000x256.size a + S3000x256.size a := by
  show i ∈ ((View.whole main_v45).slice (win3_4.rect t)).set ↔ _
  rw [View.set_slice_whole, Rect.mem_set_unit]
  exact Iff.rfl

/-- The ten blocks tile the array: row `r` lies in the block of point `r / 3000`. -/
theorem cover3 (i : S30000x256.Idx) :
    ∃ t : Fin cfg3.N, (cfg3.win 4).flush t = true ∧ i ∈ ((cfg3.win 4).blk t).view.set := by
  have hi0 : (i 0).val < 30000 := (i 0).isLt
  have hi1 : (i 1).val < 256 := (i 1).isLt
  have hN : grid3.N = 10 := N_3
  have hlt : (i 0).val / 3000 < grid3.N := by omega
  obtain ⟨e00, e01, e10, e11, e20, e21, e30, e40, e41, ht⟩ := index_maps3 ⟨(i 0).val / 3000, hlt⟩
  have e40' : win3_4.index ⟨(i 0).val / 3000, hlt⟩ (0 : Fin 2) = (i 0).val / 3000 := e40
  refine ⟨⟨(i 0).val / 3000, hlt⟩, flush3_4 _, ?_⟩
  rw [mem_block3]
  intro a
  match a with
  | ⟨0, _⟩ =>
    show win3_4.index ⟨(i 0).val / 3000, hlt⟩ (0 : Fin 2) * 3000 ≤ (i 0).val
      ∧ (i 0).val < win3_4.index ⟨(i 0).val / 3000, hlt⟩ (0 : Fin 2) * 3000 + 3000
    omega
  | ⟨1, _⟩ =>
    show win3_4.index ⟨(i 0).val / 3000, hlt⟩ (1 : Fin 2) * 256 ≤ (i 1).val
      ∧ (i 1).val < win3_4.index ⟨(i 0).val / 3000, hlt⟩ (1 : Fin 2) * 256 + 256
    omega

/-- THE ARRAY after the region: the update layer of the arrays the region finds. -/
theorem final_update3 (c : Dev nD) :
    (dat3 V c).arrAt 4 cfg3.N = update 30000 (V c main_v40) (V c main_v25) (V c main_v42) (V c main_v44) :=
  (dat3 V c).arrAt_eq_of_cover 4 _ (fun t _ => flushed_update3 V c t) cover3

end Cert.KernelIdeal.Bridge

end
-- ==== Proof.RegionUpdate4.lean ====
/-
  Update region 4: the array it leaves is the update layer of the arrays it finds.

  The region's grid has ten points. At point `t` the two row-indexed inputs (the aggregated messages and the node
  states) and the output are staged as rows `3000·t … 3000·t + 2999`, all 256 columns; the weight and the bias are
  staged whole at every point. The body's value at entry `(p, q)` of its block depends on row `p` of the two input
  blocks, column `q` of the weight and entry `q` of the bias, so block `t` of the output is block `t` of the
  layer's whole-array result; the ten blocks tile the `[30000, 256]` array, and it ends holding that result.
-/
import proofs.«156761_j26216480375265_2_alg».proof.Proof.Gen.KernelIdeal.Frame
import proofs.«156761_j26216480375265_2_alg».proof.Proof.Payloads
import Idealize.ShloMosaic.Lib.Pipeline.Value

set_option maxRecDepth 16384

noncomputable section

namespace Cert.KernelIdeal.Bridge

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's index maps over its ten grid points: the row-blocked windows sit at block row `t`, block column 0;
    the whole-array windows at block 0. -/
theorem index_maps4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0
    ∧ t.val < 10 :=
  (by decide +kernel : ∀ t : Fin grid4.N, _)

/-- The body at entry `(p, q)` of a block whose rows are rows `r, …` of the arrays: if row `p` of each input
    block is row `r` of its array and the weight and bias blocks are the arrays, the body's value is the layer's
    entry `(r, q)`. -/
theorem update_block4 (agg h : Vec Ideal S3000x256 .f32) (W : Vec Ideal S256x256 .f32) (b : Vec Ideal S256 .f32)
    (A H : (⟨2, ![30000, 256]⟩ : Shape).Idx → EReal) (Wt : (⟨2, ![256, 256]⟩ : Shape).Idx → EReal)
    (bt : (⟨1, ![256]⟩ : Shape).Idx → EReal) (p : Fin 3000) (q : Fin 256) (r : Fin 30000)
    (hA : ∀ k : Fin 256, agg (ix2 p k) = A (ix2 r k)) (hH : ∀ k : Fin 256, h (ix2 p k) = H (ix2 r k))
    (hW : ∀ k : Fin 256, W (ix2 k q) = Wt (ix2 k q)) (hb : b (ix1 q) = bt (ix1 q)) :
    (k4_pay1 (F := Ideal) agg h W b (ix2 p q) : EReal) = update 30000 A H Wt bt (ix2 r q) := by
  rw [update_payload4, update_ix2]
  unfold updateAt
  rw [hb]
  exact congrArg (fun u : EReal => u + bt (ix1 q)) (Finset.sum_congr rfl fun k _ => by rw [hA k, hH k, hW k])

/-- WHAT POINT `t` WRITES BACK is block `t` of the layer's result of the arrays the region finds. -/
theorem flushed_update4 (c : Dev nD) (t : Fin cfg4.N) :
    (dat4 V c).flushed 4 t = ((cfg4.win 4).blk t).view.read (Elt Ideal)
      (update 30000 (V c main_v60) (V c main_v45) (V c main_v62) (V c main_v64)) := by
  show (cfg4.win 4).cut (grid4.coords t) ((dat4 V c).after 4 t) = _
  rw [after4_4]
  unfold out4_4
  rw [View.canon_unit_zero zero2]
  simp only [View.ld_unit_zero (S := S3000x256) zero2, View.ld_unit_zero (S := S256x256) zero2, View.ld_unit_zero (S := S256) zero1]
  obtain ⟨e00, e01, e10, e11, e20, e21, e30, e40, e41, ht⟩ := index_maps4 t
  funext j
  have hj0 : (j 0).val < 3000 := (j 0).isLt
  have hj1 : (j 1).val < 256 := (j 1).isLt
  show (k4_pay1 (F := Ideal) (iblk4 V c 0 t) (iblk4 V c 1 t) (iblk4 V c 2 t) (iblk4 V c 3 t) j : EReal)
      = update 30000 (V c main_v60) (V c main_v45) (V c main_v62) (V c main_v64) (((cfg4.win 4).blk t).view.emb j)
  refine (congrArg (k4_pay1 (F := Ideal) (iblk4 V c 0 t) (iblk4 V c 1 t) (iblk4 V c 2 t) (iblk4 V c 3 t))
    (eq_ix2 (n0 := 3000) (n1 := 256) j)).trans ?_
  have hi : ((cfg4.win 4).blk t).view.emb j
      = ix2 (⟨t.val * 3000 + (j 0).val, by omega⟩ : Fin 30000) (⟨(j 1).val, hj1⟩ : Fin 256) := by
    funext a; apply Fin.ext
    match a with
    | ⟨0, _⟩ => show win4_4.index t (0 : Fin 2) * 3000 + 1 * (j 0).val = t.val * 3000 + (j 0).val; omega
    | ⟨1, _⟩ => show win4_4.index t (1 : Fin 2) * 256 + 1 * (j 1).val = (j 1).val; omega
  rw [hi]
  refine update_block4 (iblk4 V c 0 t) (iblk4 V c 1 t) (iblk4 V c 2 t) (iblk4 V c 3 t)
    (V c main_v60) (V c main_v45) (V c main_v62) (V c main_v64) ⟨(j 0).val, hj0⟩ ⟨(j 1).val, hj1⟩ ⟨t.val * 3000 + (j 0).val, by omega⟩
    (fun k => ?_) (fun k => ?_) (fun k => ?_) ?_
  · show V c main_v60 (((cfg4.win 0).blk t).view.emb (ix2 (⟨(j 0).val, hj0⟩ : Fin 3000) k)) = _
    refine congrArg (V c main_v60) (funext fun a => Fin.ext ?_)
    match a with
    | ⟨0, _⟩ => show win4_0.index t (0 : Fin 2) * 3000 + 1 * (j 0).val = t.val * 3000 + (j 0).val; omega
    | ⟨1, _⟩ => show win4_0.index t (1 : Fin 2) * 256 + 1 * k.val = k.val; omega
  · show V c main_v45 (((cfg4.win 1).blk t).view.emb (ix2 (⟨(j 0).val, hj0⟩ : Fin 3000) k)) = _
    refine congrArg (V c main_v45) (funext fun a => Fin.ext ?_)
    match a with
    | ⟨0, _⟩ => show win4_1.index t (0 : Fin 2) * 3000 + 1 * (j 0).val = t.val * 3000 + (j 0).val; omega
    | ⟨1, _⟩ => show win4_1.index t (1 : Fin 2) * 256 + 1 * k.val = k.val; omega
  · show V c main_v62 (((cfg4.win 2).blk t).view.emb (ix2 k (⟨(j 1).val, hj1⟩ : Fin 256))) = _
    refine congrArg (V c main_v62) (funext fun a => Fin.ext ?_)
    match a with
    | ⟨0, _⟩ => show win4_2.index t (0 : Fin 2) * 256 + 1 * k.val = k.val; omega
    | ⟨1, _⟩ => show win4_2.index t (1 : Fin 2) * 256 + 1 * (j 1).val = (j 1).val; omega
  · show V c main_v64 (((cfg4.win 3).blk t).view.emb (ix1 (⟨(j 1).val, hj1⟩ : Fin 256))) = _
    refine congrArg (V c main_v64) (funext fun a => Fin.ext ?_)
    match a with
    | ⟨0, _⟩ => show win4_3.index t (0 : Fin 1) * 256 + 1 * (j 1).val = (j 1).val; omega

/-- An index of the array is in point `t`'s block iff each coordinate is in the block's range on its axis. -/
theorem mem_block4 (t : Fin cfg4.N) (i : S30000x256.Idx) :
    i ∈ ((cfg4.win 4).blk t).view.set ↔ ∀ a : Fin 2, win4_4.index t a * S3000x256.size a ≤ (i a).val
      ∧ (i a).val < win4_4.index t a * S3000x256.size a + S3000x256.size a := by
  show i ∈ ((View.whole main_v65).slice (win4_4.rect t)).set ↔ _
  rw [View.set_slice_whole, Rect.mem_set_unit]
  exact Iff.rfl

/-- The ten blocks tile the array: row `r` lies in the block of point `r / 3000`. -/
theorem cover4 (i : S30000x256.Idx) :
    ∃ t : Fin cfg4.N, (cfg4.win 4).flush t = true ∧ i ∈ ((cfg4.win 4).blk t).view.set := by
  have hi0 : (i 0).val < 30000 := (i 0).isLt
  have hi1 : (i 1).val < 256 := (i 1).isLt
  have hN : grid4.N = 10 := N_4
  have hlt : (i 0).val / 3000 < grid4.N := by omega
  obtain ⟨e00, e01, e10, e11, e20, e21, e30, e40, e41, ht⟩ := index_maps4 ⟨(i 0).val / 3000, hlt⟩
  have e40' : win4_4.index ⟨(i 0).val / 3000, hlt⟩ (0 : Fin 2) = (i 0).val / 3000 := e40
  refine ⟨⟨(i 0).val / 3000, hlt⟩, flush4_4 _, ?_⟩
  rw [mem_block4]
  intro a
  match a with
  | ⟨0, _⟩ =>
    show win4_4.index ⟨(i 0).val / 3000, hlt⟩ (0 : Fin 2) * 3000 ≤ (i 0).val
      ∧ (i 0).val < win4_4.index ⟨(i 0).val / 3000, hlt⟩ (0 : Fin 2) * 3000 + 3000
    omega
  | ⟨1, _⟩ =>
    show win4_4.index ⟨(i 0).val / 3000, hlt⟩ (1 : Fin 2) * 256 ≤ (i 1).val
      ∧ (i 1).val < win4_4.index ⟨(i 0).val / 3000, hlt⟩ (1 : Fin 2) * 256 + 256
    omega

/-- THE ARRAY after the region: the update layer of the arrays the region finds. -/
theorem final_update4 (c : Dev nD) :
    (dat4 V c).arrAt 4 cfg4.N = update 30000 (V c main_v60) (V c main_v45) (V c main_v62) (V c main_v64) :=
  (dat4 V c).arrAt_eq_of_cover 4 _ (fun t _ => flushed_update4 V c t) cover4

end Cert.KernelIdeal.Bridge

end
-- ==== Proof.RegionUpdate5.lean ====
/-
  Update region 5: the array it leaves is the update layer of the arrays it finds.

  The region's grid has ten points. At point `t` the two row-indexed inputs (the aggregated messages and the node
  states) and the output are staged as rows `3000·t … 3000·t + 2999`, all 256 columns; the weight and the bias are
  staged whole at every point. The body's value at entry `(p, q)` of its block depends on row `p` of the two input
  blocks, column `q` of the weight and entry `q` of the bias, so block `t` of the output is block `t` of the
  layer's whole-array result; the ten blocks tile the `[30000, 256]` array, and it ends holding that result.
-/
import proofs.«156761_j26216480375265_2_alg».proof.Proof.Gen.KernelIdeal.Frame
import proofs.«156761_j26216480375265_2_alg».proof.Proof.Payloads
import Idealize.ShloMosaic.Lib.Pipeline.Value

set_option maxRecDepth 16384

noncomputable section

namespace Cert.KernelIdeal.Bridge

open Cert.KernelIdeal Cert.KernelIdeal.Gen Cert.GnnSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's index maps over its ten grid points: the row-blocked windows sit at block row `t`, block column 0;
    the whole-array windows at block 0. -/
theorem index_maps5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = t.val ∧ win5_4.index t (1 : Fin 2) = 0
    ∧ t.val < 10 :=
  (by decide +kernel : ∀ t : Fin grid5.N, _)

/-- The body at entry `(p, q)` of a block whose rows are rows `r, …` of the arrays: if row `p` of each input
    block is row `r` of its array and the weight and bias blocks are the arrays, the body's value is the layer's
    entry `(r, q)`. -/
theorem update_block5 (agg h : Vec Ideal S3000x256 .f32) (W : Vec Ideal S256x256 .f32) (b : Vec Ideal S256 .f32)
    (A H : (⟨2, ![30000, 256]⟩ : Shape).Idx → EReal) (Wt : (⟨2, ![256, 256]⟩ : Shape).Idx → EReal)
    (bt : (⟨1, ![256]⟩ : Shape).Idx → EReal) (p : Fin 3000) (q : Fin 256) (r : Fin 30000)
    (hA : ∀ k : Fin 256, agg (ix2 p k) = A (ix2 r k)) (hH : ∀ k : Fin 256, h (ix2 p k) = H (ix2 r k))
    (hW : ∀ k : Fin 256, W (ix2 k q) = Wt (ix2 k q)) (hb : b (ix1 q) = bt (ix1 q)) :
    (k5_pay1 (F := Ideal) agg h W b (ix2 p q) : EReal) = update 30000 A H Wt bt (ix2 r q) := by
  rw [update_payload5, update_ix2]
  unfold updateAt
  rw [hb]
  exact congrArg (fun u : EReal => u + bt (ix1 q)) (Finset.sum_congr rfl fun k _ => by rw [hA k, hH k, hW k])

/-- WHAT POINT `t` WRITES BACK is block `t` of the layer's result of the arrays the region finds. -/
theorem flushed_update5 (c : Dev nD) (t : Fin cfg5.N) :
    (dat5 V c).flushed 4 t = ((cfg5.win 4).blk t).view.read (Elt Ideal)
      (update 30000 (V c main_v80) (V c main_v65) (V c main_v82) (V c main_v84)) := by
  show (cfg5.win 4).cut (grid5.coords t) ((dat5 V c).after 4 t) = _
  rw [after5_4]
  unfold out5_4
  rw [View.canon_unit_zero zero2]
  simp only [View.ld_unit_zero (S := S3000x256) zero2, View.ld_unit_zero (S := S256x256) zero2, View.ld_unit_zero (S := S256) zero1]
  obtain ⟨e00, e01, e10, e11, e20, e21, e30, e40, e41, ht⟩ := index_maps5 t
  funext j
  have hj0 : (j 0).val < 3000 := (j 0).isLt
  have hj1 : (j 1).val < 256 := (j 1).isLt
  show (k5_pay1 (F := Ideal) (iblk5 V c 0 t) (iblk5 V c 1 t) (iblk5 V c 2 t) (iblk5 V c 3 t) j : EReal)
      = update 30000 (V c main_v80) (V c main_v65) (V c main_v82) (V c main_v84) (((cfg5.win 4).blk t).view.emb j)
  refine (congrArg (k5_pay1 (F := Ideal) (iblk5 V c 0 t) (iblk5 V c 1 t) (iblk5 V c 2 t) (iblk5 V c 3 t))
    (eq_ix2 (n0 := 3000) (n1 := 256) j)).trans ?_
  have hi : ((cfg5.win 4).blk t).view.emb j
      = ix2 (⟨t.val * 3000 + (j 0).val, by omega⟩ : Fin 30000) (⟨(j 1).val, hj1⟩ : Fin 256) := by
    funext a; apply Fin.ext
    match a with
    | ⟨0, _⟩ => show win5_4.index t (0 : Fin 2) * 3000 + 1 * (j 0).val = t.val * 3000 + (j 0).val; omega
    | ⟨1, _⟩ => show win5_4.index t (1 : Fin 2) * 256 + 1 * (j 1).val = (j 1).val; omega
  rw [hi]
  refine update_block5 (iblk5 V c 0 t) (iblk5 V c 1 t) (iblk5 V c 2 t) (iblk5 V c 3 t)
    (V c main_v80) (V c main_v65) (V c main_v82) (V c main_v84) ⟨(j 0).val, hj0⟩ ⟨(j 1).val, hj1⟩ ⟨t.val * 3000 + (j 0).val, by omega⟩
    (fun k => ?_) (fun k => ?_) (fun k => ?_) ?_
  · show V c main_v80 (((cfg5.win 0).blk t).view.emb (ix2 (⟨(j 0).val, hj0⟩ : Fin 3000) k)) = _
    refine congrArg (V c main_v80) (funext fun a => Fin.ext ?_)
    match a with
    | ⟨0, _⟩ => show win5_0.index t (0 : Fin 2) * 3000 + 1 * (j 0).val = t.val * 3000 + (j 0).val; omega
    | ⟨1, _⟩ => show win5_0.index t (1 : Fin 2) * 256 + 1 * k.val = k.val; omega
  · show V c main_v65 (((cfg5.win 1).blk t).view.emb (ix2 (⟨(j 0).val, hj0⟩ : Fin 3000) k)) = _
    refine congrArg (V c main_v65) (funext fun a => Fin.ext ?_)
    match a with
    | ⟨0, _⟩ => show win5_1.index t (0 : Fin 2) * 3000 + 1 * (j 0).val = t.val * 3000 + (j 0).val; omega
    | ⟨1, _⟩ => show win5_1.index t (1 : Fin 2) * 256 + 1 * k.val = k.val; omega
  · show V c main_v82 (((cfg5.win 2).blk t).view.emb (ix2 k (⟨(j 1).val, hj1⟩ : Fin 256))) = _
    refine congrArg (V c main_v82) (funext fun a => Fin.ext ?_)
    match a with
    | ⟨0, _⟩ => show win5_2.index t (0 : Fin 2) * 256 + 1 * k.val = k.val; omega
    | ⟨1, _⟩ => show win5_2.index t (1 : Fin 2) * 256 + 1 * (j 1).val = (j 1).val; omega
  · show V c main_v84 (((cfg5.win 3).blk t).view.emb (ix1 (⟨(j 1).val, hj1⟩ : Fin 256))) = _
    refine congrArg (V c main_v84) (funext fun a => Fin.ext ?_)
    match a with
    | ⟨0, _⟩ => show win5_3.index t (0 : Fin 1) * 256 + 1 * (j 1).val = (j 1).val; omega

/-- An index of the array is in point `t`'s block iff each coordinate is in the block's range on its axis. -/
theorem mem_block5 (t : Fin cfg5.N) (i : S30000x256.Idx) :
    i ∈ ((cfg5.win 4).blk t).view.set ↔ ∀ a : Fin 2, win5_4.index t a * S3000x256.size a ≤ (i a).val
      ∧ (i a).val < win5_4.index t a * S3000x256.size a + S3000x256.size a := by
  show i ∈ ((View.whole main_v85).slice (win5_4.rect t)).set ↔ _
  rw [View.set_slice_whole, Rect.mem_set_unit]
  exact Iff.rfl

/-- The ten blocks tile the array: row `r` lies in the block of point `r / 3000`. -/
theorem cover5 (i : S30000x256.Idx) :
    ∃ t : Fin cfg5.N, (cfg5.win 4).flush t = true ∧ i ∈ ((cfg5.win 4).blk t).view.set := by
  have hi0 : (i 0).val < 30000 := (i 0).isLt
  have hi1 : (i 1).val < 256 := (i 1).isLt
  have hN : grid5.N = 10 := N_5
  have hlt : (i 0).val / 3000 < grid5.N := by omega
  obtain ⟨e00, e01, e10, e11, e20, e21, e30, e40, e41, ht⟩ := index_maps5 ⟨(i 0).val / 3000, hlt⟩
  have e40' : win5_4.index ⟨(i 0).val / 3000, hlt⟩ (0 : Fin 2) = (i 0).val / 3000 := e40
  refine ⟨⟨(i 0).val / 3000, hlt⟩, flush5_4 _, ?_⟩
  rw [mem_block5]
  intro a
  match a with
  | ⟨0, _⟩ =>
    show win5_4.index ⟨(i 0).val / 3000, hlt⟩ (0 : Fin 2) * 3000 ≤ (i 0).val
      ∧ (i 0).val < win5_4.index ⟨(i 0).val / 3000, hlt⟩ (0 : Fin 2) * 3000 + 3000
    omega
  | ⟨1, _⟩ =>
    show win5_4.index ⟨(i 0).val / 3000, hlt⟩ (1 : Fin 2) * 256 ≤ (i 1).val
      ∧ (i 1).val < win5_4.index ⟨(i 0).val / 3000, hlt⟩ (1 : Fin 2) * 256 + 256
    omega

/-- THE ARRAY after the region: the update layer of the arrays the region finds. -/
theorem final_update5 (c : Dev nD) :
    (dat5 V c).arrAt 4 cfg5.N = update 30000 (V c main_v80) (V c main_v65) (V c main_v82) (V c main_v84) :=
  (dat5 V c).arrAt_eq_of_cover 4 _ (fun t _ => flushed_update5 V c t) cover5

end Cert.KernelIdeal.Bridge

end
-- ==== Proof.RefLayers.lean ====
/-
  The reference's layers as the functions of `LayerSpec`.

  The reference computes each encoder and each update layer as a line of host operations: matrix products,
  broadcasts of a bias over the rows, sums, the rectifier. Read at an entry `(p, q)`, stage by stage, the line
  is the layer's formula: a product contracts its operands' shared axis as a plain sum on the extended reals, a
  broadcast of a `[256]` vector first to `[1, 256]` and then over the rows reads entry `q`, and the
  contraction of the encoders' first product runs over a single feature. What the update layers read — the
  aggregated messages, the previous node states, the layer's slice of the weights and biases — is left as the
  reference's own stages: both programs obtain those by the same host operations.
-/
import proofs.«156761_j26216480375265_2_alg».proof.Proof.Gen.ReferenceIdeal.Read
import proofs.«156761_j26216480375265_2_alg».proof.Proof.LayerSpec

noncomputable section

namespace Cert.ReferenceIdeal.Layers

open Cert.ReferenceIdeal Cert.ReferenceIdeal.Read Cert.GnnSpec
open Idealize.ShloMosaic Idealize.ShloMosaic.ValueIdx

/-- The reference's node encoder — a product with the one-row first layer, the bias broadcast over the rows, the
    rectifier, the product with the second layer, its bias — is the encoder of `LayerSpec` over 30000 rows: the
    contraction over the single input feature is one product, and each broadcast reads the entry its column names. -/
theorem ref_node_encoder (x0 : (⟨S30000x1, .f32⟩ : BufTy).Contents (Elt Ideal)) (x3 : (⟨S1x128, .f32⟩ : BufTy).Contents (Elt Ideal)) (x4 : (⟨S128, .f32⟩ : BufTy).Contents (Elt Ideal))
    (x5 : (⟨S128x256, .f32⟩ : BufTy).Contents (Elt Ideal)) (x6 : (⟨S256, .f32⟩ : BufTy).Contents (Elt Ideal)) :
    val_main_v8 (F := Ideal) x0 x3 x4 x5 x6 = encode 30000 x0 x3 x4 x5 x6 := by
  funext i
  rw [val_main_v8_apply, val_main_v5_apply, val_main_v7_apply, val_main_v6_apply]
  show (∑ k : Fin 128, _) + _ = encodeAt 30000 x0 x3 x4 x5 x6 (i 0) (i 1)
  unfold encodeAt
  refine congrArg₂ (fun u v : EReal => u + v) (Finset.sum_congr rfl fun k _ => ?_) ?_
  · rw [val_main_v4_apply, val_main_v3_apply, val_main_v0_apply, val_main_v2_apply, val_main_v1_apply,
      val_main_call0_v0_apply, val_main_call0_cst_apply, Fin.sum_univ_one]
    have h1 : lidx_main_v0 (lidx_main_v5 i k) 0 = ix2 (i 0) (0 : Fin 1) := funext fun a => Fin.ext (by match a with | ⟨0, _⟩ => rfl | ⟨1, _⟩ => rfl)
    have h2 : ridx_main_v0 (lidx_main_v5 i k) 0 = ix2 (0 : Fin 1) k := funext fun a => Fin.ext (by match a with | ⟨0, _⟩ => rfl | ⟨1, _⟩ => rfl)
    have h3 : idx_main_v1 (idx_main_v2 (lidx_main_v5 i k)) = ix1 k := funext fun a => Fin.ext (by match a with | ⟨0, _⟩ => rfl)
    have h4 : ridx_main_v5 i k = ix2 k (i 1) := funext fun a => Fin.ext (by match a with | ⟨0, _⟩ => rfl | ⟨1, _⟩ => rfl)
    rw [h1, h2, h3, h4]
    rfl
  · exact congrArg x6 (funext fun a => Fin.ext (by match a with | ⟨0, _⟩ => rfl))

/-- The reference's edge encoder — a product with the one-row first layer, the bias broadcast over the rows, the
    rectifier, the product with the second layer, its bias — is the encoder of `LayerSpec` over 300000 rows: the
    contraction over the single input feature is one product, and each broadcast reads the entry its column names. -/
theorem ref_edge_encoder (x1 : (⟨S300000x1, .f32⟩ : BufTy).Contents (Elt Ideal)) (x7 : (⟨S1x128, .f32⟩ : BufTy).Contents (Elt Ideal)) (x8 : (⟨S128, .f32⟩ : BufTy).Contents (Elt Ideal))
    (x9 : (⟨S128x256, .f32⟩ : BufTy).Contents (Elt Ideal)) (x10 : (⟨S256, .f32⟩ : BufTy).Contents (Elt Ideal)) :
    val_main_v17 (F := Ideal) x1 x7 x8 x9 x10 = encode 300000 x1 x7 x8 x9 x10 := by
  funext i
  rw [val_main_v17_apply, val_main_v14_apply, val_main_v16_apply, val_main_v15_apply]
  show (∑ k : Fin 128, _) + _ = encodeAt 300000 x1 x7 x8 x9 x10 (i 0) (i 1)
  unfold encodeAt
  refine congrArg₂ (fun u v : EReal => u + v) (Finset.sum_congr rfl fun k _ => ?_) ?_
  · rw [val_main_v13_apply, val_main_v12_apply, val_main_v9_apply, val_main_v11_apply, val_main_v10_apply,
      val_main_call1_v0_apply, val_main_call1_cst_apply, Fin.sum_univ_one]
    have h1 : lidx_main_v9 (lidx_main_v14 i k) 0 = ix2 (i 0) (0 : Fin 1) := funext fun a => Fin.ext (by match a with | ⟨0, _⟩ => rfl | ⟨1, _⟩ => rfl)
    have h2 : ridx_main_v9 (lidx_main_v14 i k) 0 = ix2 (0 : Fin 1) k := funext fun a => Fin.ext (by match a with | ⟨0, _⟩ => rfl | ⟨1, _⟩ => rfl)
    have h3 : idx_main_v10 (idx_main_v11 (lidx_main_v14 i k)) = ix1 k := funext fun a => Fin.ext (by match a with | ⟨0, _⟩ => rfl)
    have h4 : ridx_main_v14 i k = ix2 k (i 1) := funext fun a => Fin.ext (by match a with | ⟨0, _⟩ => rfl | ⟨1, _⟩ => rfl)
    rw [h1, h2, h3, h4]
    rfl
  · exact congrArg x10 (funext fun a => Fin.ext (by match a with | ⟨0, _⟩ => rfl))

/-- The reference's update layer 1: the aggregated messages plus the previous node states, times the layer's weight,
    plus its bias broadcast over the rows. Entry `(p, q)` is the sum over `k` of (agg(p,k) + h(p,k)) · W(k,q), plus b(q). -/
theorem ref_update1 (x0 : (⟨S30000x1, .f32⟩ : BufTy).Contents (Elt Ideal)) (x1 : (⟨S300000x1, .f32⟩ : BufTy).Contents (Elt Ideal)) (x2 : (⟨S2x300000, .i32⟩ : BufTy).Contents (Elt Ideal)) (x3 : (⟨S1x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S1x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S4x256x256, .f32⟩ : BufTy).Contents (Elt Ideal)) (x12 : (⟨S4x256, .f32⟩ : BufTy).Contents (Elt Ideal)) :
    val_main_v44 (F := Ideal) x0 x1 x2 x3 x4 x5 x6 x7 x8 x9 x10 x11 x12
      = update 30000 (val_main_v35 (F := Ideal) x0 x1 x2 x3 x4 x5 x6 x7 x8 x9 x10) (val_main_v8 (F := Ideal) x0 x3 x4 x5 x6)
          (val_main_v38 (F := Ideal) x11) (val_main_v41 (F := Ideal) x12) := by
  funext i
  rw [val_main_v44_apply, val_main_v39_apply, val_main_v43_apply, val_main_v42_apply]
  show (∑ k : Fin 256, _) + _ = updateAt 30000 _ _ _ _ (i 0) (i 1)
  unfold updateAt
  refine congrArg₂ (fun u v : EReal => u + v) (Finset.sum_congr rfl fun k _ => ?_) ?_
  · rw [val_main_v36_apply]
    have hl : lidx_main_v39 i k = ix2 (i 0) k := funext fun a => Fin.ext (by match a with | ⟨0, _⟩ => rfl | ⟨1, _⟩ => rfl)
    have hr : ridx_main_v39 i k = ix2 k (i 1) := funext fun a => Fin.ext (by match a with | ⟨0, _⟩ => rfl | ⟨1, _⟩ => rfl)
    rw [hl, hr]
    rfl
  · exact congrArg (val_main_v41 (F := Ideal) x12) (funext fun a => Fin.ext (by match a with | ⟨0, _⟩ => rfl))

/-- The reference's update layer 2: the aggregated messages plus the previous node states, times the layer's weight,
    plus its bias broadcast over the rows. Entry `(p, q)` is the sum over `k` of (agg(p,k) + h(p,k)) · W(k,q), plus b(q). -/
theorem ref_update2 (x0 : (⟨S30000x1, .f32⟩ : BufTy).Contents (Elt Ideal)) (x1 : (⟨S300000x1, .f32⟩ : BufTy).Contents (Elt Ideal)) (x2 : (⟨S2x300000, .i32⟩ : BufTy).Contents (Elt Ideal)) (x3 : (⟨S1x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S1x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S4x256x256, .f32⟩ : BufTy).Contents (Elt Ideal)) (x12 : (⟨S4x256, .f32⟩ : BufTy).Contents (Elt Ideal)) :
    val_main_v67 (F := Ideal) x0 x1 x2 x3 x4 x5 x6 x7 x8 x9 x10 x11 x12
      = update 30000 (val_main_v58 (F := Ideal) x0 x1 x2 x3 x4 x5 x6 x7 x8 x9 x10 x11 x12) (val_main_v44 (F := Ideal) x0 x1 x2 x3 x4 x5 x6 x7 x8 x9 x10 x11 x12)
          (val_main_v61 (F := Ideal) x11) (val_main_v64 (F := Ideal) x12) := by
  funext i
  rw [val_main_v67_apply, val_main_v62_apply, val_main_v66_apply, val_main_v65_apply]
  show (∑ k : Fin 256, _) + _ = updateAt 30000 _ _ _ _ (i 0) (i 1)
  unfold updateAt
  refine congrArg₂ (fun u v : EReal => u + v) (Finset.sum_congr rfl fun k _ => ?_) ?_
  · rw [val_main_v59_apply]
    have hl : lidx_main_v62 i k = ix2 (i 0) k := funext fun a => Fin.ext (by match a with | ⟨0, _⟩ => rfl | ⟨1, _⟩ => rfl)
    have hr : ridx_main_v62 i k = ix2 k (i 1) := funext fun a => Fin.ext (by match a with | ⟨0, _⟩ => rfl | ⟨1, _⟩ => rfl)
    rw [hl, hr]
    rfl
  · exact congrArg (val_main_v64 (F := Ideal) x12) (funext fun a => Fin.ext (by match a with | ⟨0, _⟩ => rfl))

/-- The reference's update layer 3: the aggregated messages plus the previous node states, times the layer's weight,
    plus its bias broadcast over the rows. Entry `(p, q)` is the sum over `k` of (agg(p,k) + h(p,k)) · W(k,q), plus b(q). -/
theorem ref_update3 (x0 : (⟨S30000x1, .f32⟩ : BufTy).Contents (Elt Ideal)) (x1 : (⟨S300000x1, .f32⟩ : BufTy).Contents (Elt Ideal)) (x2 : (⟨S2x300000, .i32⟩ : BufTy).Contents (Elt Ideal)) (x3 : (⟨S1x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S1x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S4x256x256, .f32⟩ : BufTy).Contents (Elt Ideal)) (x12 : (⟨S4x256, .f32⟩ : BufTy).Contents (Elt Ideal)) :
    val_main_v90 (F := Ideal) x0 x1 x2 x3 x4 x5 x6 x7 x8 x9 x10 x11 x12
      = update 30000 (val_main_v81 (F := Ideal) x0 x1 x2 x3 x4 x5 x6 x7 x8 x9 x10 x11 x12) (val_main_v67 (F := Ideal) x0 x1 x2 x3 x4 x5 x6 x7 x8 x9 x10 x11 x12)
          (val_main_v84 (F := Ideal) x11) (val_main_v87 (F := Ideal) x12) := by
  funext i
  rw [val_main_v90_apply, val_main_v85_apply, val_main_v89_apply, val_main_v88_apply]
  show (∑ k : Fin 256, _) + _ = updateAt 30000 _ _ _ _ (i 0) (i 1)
  unfold updateAt
  refine congrArg₂ (fun u v : EReal => u + v) (Finset.sum_congr rfl fun k _ => ?_) ?_
  · rw [val_main_v82_apply]
    have hl : lidx_main_v85 i k = ix2 (i 0) k := funext fun a => Fin.ext (by match a with | ⟨0, _⟩ => rfl | ⟨1, _⟩ => rfl)
    have hr : ridx_main_v85 i k = ix2 k (i 1) := funext fun a => Fin.ext (by match a with | ⟨0, _⟩ => rfl | ⟨1, _⟩ => rfl)
    rw [hl, hr]
    rfl
  · exact congrArg (val_main_v87 (F := Ideal) x12) (funext fun a => Fin.ext (by match a with | ⟨0, _⟩ => rfl))

/-- The reference's update layer 4: the aggregated messages plus the previous node states, times the layer's weight,
    plus its bias broadcast over the rows. Entry `(p, q)` is the sum over `k` of (agg(p,k) + h(p,k)) · W(k,q), plus b(q). -/
theorem ref_update4 (x0 : (⟨S30000x1, .f32⟩ : BufTy).Contents (Elt Ideal)) (x1 : (⟨S300000x1, .f32⟩ : BufTy).Contents (Elt Ideal)) (x2 : (⟨S2x300000, .i32⟩ : BufTy).Contents (Elt Ideal)) (x3 : (⟨S1x128, .f32⟩ : BufTy).Contents (Elt Ideal)) (x4 : (⟨S128, .f32⟩ : BufTy).Contents (Elt Ideal)) (x5 : (⟨S128x256, .f32⟩ : BufTy).Contents (Elt Ideal)) (x6 : (⟨S256, .f32⟩ : BufTy).Contents (Elt Ideal)) (x7 : (⟨S1x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S4x256x256, .f32⟩ : BufTy).Contents (Elt Ideal)) (x12 : (⟨S4x256, .f32⟩ : BufTy).Contents (Elt Ideal)) :
    val_main_v113 (F := Ideal) x0 x1 x2 x3 x4 x5 x6 x7 x8 x9 x10 x11 x12
      = update 30000 (val_main_v104 (F := Ideal) x0 x1 x2 x3 x4 x5 x6 x7 x8 x9 x10 x11 x12) (val_main_v90 (F := Ideal) x0 x1 x2 x3 x4 x5 x6 x7 x8 x9 x10 x11 x12)
          (val_main_v107 (F := Ideal) x11) (val_main_v110 (F := Ideal) x12) := by
  funext i
  rw [val_main_v113_apply, val_main_v108_apply, val_main_v112_apply, val_main_v111_apply]
  show (∑ k : Fin 256, _) + _ = updateAt 30000 _ _ _ _ (i 0) (i 1)
  unfold updateAt
  refine congrArg₂ (fun u v : EReal => u + v) (Finset.sum_congr rfl fun k _ => ?_) ?_
  · rw [val_main_v105_apply]
    have hl : lidx_main_v108 i k = ix2 (i 0) k := funext fun a => Fin.ext (by match a with | ⟨0, _⟩ => rfl | ⟨1, _⟩ => rfl)
    have hr : ridx_main_v108 i k = ix2 k (i 1) := funext fun a => Fin.ext (by match a with | ⟨0, _⟩ => rfl | ⟨1, _⟩ => rfl)
    rw [hl, hr]
    rfl
  · exact congrArg (val_main_v110 (F := Ideal) x12) (funext fun a => Fin.ext (by match a with | ⟨0, _⟩ => rfl))

end Cert.ReferenceIdeal.Layers

end
-- ==== Proof.HostChain.lean ====
/-
  The kernel's buffers, boundary by boundary, are the reference's stages of the launch arguments.

  The generated frame module names the TensorCore's buffer contents at each of @main's nineteen segment boundaries
  (`W0` at launch … `W19` at the return). Walking forward:
  * region 0 leaves the node encoding and region 1 the edge encoding of the launch arguments (the encoder regions'
    arrays are `LayerSpec`'s encoder, which is what the reference's host operations compute);
  * in each of the four layers the host stretch before the region gathers the source nodes' states, adds the edge
    encoding, rectifies, adds the constant, and scatter-adds at the target nodes — the same host operations, with the
    same records and literals, as the reference's, applied to operands already shown equal (the kernel also changes
    the edge encoding's float format, which is the identity on the extended reals) —, and slices the layer's weight
    and bias out of the stacked arguments; the region then leaves `LayerSpec`'s update layer of those, which is the
    reference's next node states;
  * the last stretch is the output head, the reference's own operations on the last node states.
  A buffer that a segment does not write keeps its contents: that carries the edge encoding, the edge index and the
  stacked weights from their launch (or encoder) values to every layer.
-/
import proofs.«156761_j26216480375265_2_alg».proof.Proof.Gen.KernelIdeal.Frame
import proofs.«156761_j26216480375265_2_alg».proof.Proof.RegionEncode0
import proofs.«156761_j26216480375265_2_alg».proof.Proof.RegionEncode1
import proofs.«156761_j26216480375265_2_alg».proof.Proof.RegionUpdate2
import proofs.«156761_j26216480375265_2_alg».proof.Proof.RegionUpdate3
import proofs.«156761_j26216480375265_2_alg».proof.Proof.RegionUpdate4
import proofs.«156761_j26216480375265_2_alg».proof.Proof.RegionUpdate5
import proofs.«156761_j26216480375265_2_alg».proof.Proof.RefLayers
import Idealize.ShloMosaic.Lib.StableHlo.Run

set_option maxRecDepth 16384

noncomputable section

namespace Cert.KernelIdeal.Chain

open Cert.KernelIdeal Cert.KernelIdeal.Gen Cert.KernelIdeal.Bridge Cert.GnnSpec
open Cert.ReferenceIdeal.Read Cert.ReferenceIdeal.Layers
open Idealize.ShloMosaic Idealize.ShloMosaic.TcCoe Idealize.ShloMosaic.ValueIdx Idealize.SL.Sem Idealize.ShloMosaic.StableHlo

/-- Closes `StableHlo.after ops W b = W b` for a literal stretch `ops` none of whose operations writes `b`. -/
macro "stretch_keeps" : tactic => `(tactic| (
  refine StableHlo.after_of_forall_not_mem _ _ (List.forall_iff_forall_mem.mp ?_)
  simp only [hostOps2, hostOps2_1, hostOps2_2, hostOps3, hostOps3_1, hostOps3_2, hostOps4, hostOps4_1, hostOps4_2,
    hostOps5, hostOps5_1, hostOps5_2, hostOps6, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-- Argument 0 of @main as launched, on core `c`. -/
abbrev a0 : (⟨Cert.ReferenceIdeal.S30000x1, .f32⟩ : BufTy).Contents (Elt Ideal) := m ((c : Thread nD τ).loc main_arg0)
/-- Argument 1 of @main as launched, on core `c`. -/
abbrev a1 : (⟨Cert.ReferenceIdeal.S300000x1, .f32⟩ : BufTy).Contents (Elt Ideal) := m ((c : Thread nD τ).loc main_arg1)
/-- Argument 2 of @main as launched, on core `c`. -/
abbrev a2 : (⟨Cert.ReferenceIdeal.S2x300000, .i32⟩ : BufTy).Contents (Elt Ideal) := m ((c : Thread nD τ).loc main_arg2)
/-- Argument 3 of @main as launched, on core `c`. -/
abbrev a3 : (⟨Cert.ReferenceIdeal.S1x128, .f32⟩ : BufTy).Contents (Elt Ideal) := m ((c : Thread nD τ).loc main_arg3)
/-- Argument 4 of @main as launched, on core `c`. -/
abbrev a4 : (⟨Cert.ReferenceIdeal.S128, .f32⟩ : BufTy).Contents (Elt Ideal) := m ((c : Thread nD τ).loc main_arg4)
/-- Argument 5 of @main as launched, on core `c`. -/
abbrev a5 : (⟨Cert.ReferenceIdeal.S128x256, .f32⟩ : BufTy).Contents (Elt Ideal) := m ((c : Thread nD τ).loc main_arg5)
/-- Argument 6 of @main as launched, on core `c`. -/
abbrev a6 : (⟨Cert.ReferenceIdeal.S256, .f32⟩ : BufTy).Contents (Elt Ideal) := m ((c : Thread nD τ).loc main_arg6)
/-- Argument 7 of @main as launched, on core `c`. -/
abbrev a7 : (⟨Cert.ReferenceIdeal.S1x128, .f32⟩ : BufTy).Contents (Elt Ideal) := m ((c : Thread nD τ).loc main_arg7)
/-- Argument 8 of @main as launched, on core `c`. -/
abbrev a8 : (⟨Cert.ReferenceIdeal.S128, .f32⟩ : BufTy).Contents (Elt Ideal) := m ((c : Thread nD τ).loc main_arg8)
/-- Argument 9 of @main as launched, on core `c`. -/
abbrev a9 : (⟨Cert.ReferenceIdeal.S128x256, .f32⟩ : BufTy).Contents (Elt Ideal) := m ((c : Thread nD τ).loc main_arg9)
/-- Argument 10 of @main as launched, on core `c`. -/
abbrev a10 : (⟨Cert.ReferenceIdeal.S256, .f32⟩ : BufTy).Contents (Elt Ideal) := m ((c : Thread nD τ).loc main_arg10)
/-- Argument 11 of @main as launched, on core `c`. -/
abbrev a11 : (⟨Cert.ReferenceIdeal.S4x256x256, .f32⟩ : BufTy).Contents (Elt Ideal) := m ((c : Thread nD τ).loc main_arg11)
/-- Argument 12 of @main as launched, on core `c`. -/
abbrev a12 : (⟨Cert.ReferenceIdeal.S4x256, .f32⟩ : BufTy).Contents (Elt Ideal) := m ((c : Thread nD τ).loc main_arg12)
/-- Argument 13 of @main as launched, on core `c`. -/
abbrev a13 : (⟨Cert.ReferenceIdeal.S256x3, .f32⟩ : BufTy).Contents (Elt Ideal) := m ((c : Thread nD τ).loc main_arg13)
/-- Argument 14 of @main as launched, on core `c`. -/
abbrev a14 : (⟨Cert.ReferenceIdeal.S3, .f32⟩ : BufTy).Contents (Elt Ideal) := m ((c : Thread nD τ).loc main_arg14)

/-! ## The encoders -/

/-- After region 0 its output array holds the reference's node encoding of the launch arguments. -/
theorem node_states0 :
    W1 m ρ c (Proc.devRef .tc main_v0) = val_main_v8 (F := Ideal) (a0 m c) (a3 m c) (a4 m c) (a5 m c) (a6 m c) :=
  (W1_arr m ρ c 5).trans ((final_encode0 (V0 m ρ) c).trans (ref_node_encoder _ _ _ _ _).symm)

/-- After region 1 its output array holds the reference's edge encoding of the launch arguments: region 0 wrote none of
    the arrays region 1 reads. -/
theorem edge_states :
    W2 m ρ c (Proc.devRef .tc main_v1) = val_main_v17 (F := Ideal) (a1 m c) (a7 m c) (a8 m c) (a9 m c) (a10 m c) := by
  refine (W2_arr m ρ c 5).trans ((final_encode1 (V1 m ρ) c).trans ?_)
  rw [show V1 m ρ c main_arg1 = a1 m c from W1_of_ne m ρ c main_arg1 (by decide),
    show V1 m ρ c main_arg7 = a7 m c from W1_of_ne m ρ c main_arg7 (by decide),
    show V1 m ρ c main_arg8 = a8 m c from W1_of_ne m ρ c main_arg8 (by decide),
    show V1 m ρ c main_arg9 = a9 m c from W1_of_ne m ρ c main_arg9 (by decide),
    show V1 m ρ c main_arg10 = a10 m c from W1_of_ne m ρ c main_arg10 (by decide)]
  exact (ref_edge_encoder _ _ _ _ _).symm

/-! ## What every layer reads besides the node states, entering the first layer -/

theorem edges_at2 : W2 m ρ c (Proc.devRef .tc main_v1) = val_main_v17 (F := Ideal) (a1 m c) (a7 m c) (a8 m c) (a9 m c) (a10 m c) :=
  edge_states m ρ c
theorem index_at2 : W2 m ρ c (Proc.devRef .tc main_arg2) = a2 m c :=
  (W2_of_ne m ρ c main_arg2 (by decide)).trans (W1_of_ne m ρ c main_arg2 (by decide))
theorem weights_at2 : W2 m ρ c (Proc.devRef .tc main_arg11) = a11 m c :=
  (W2_of_ne m ρ c main_arg11 (by decide)).trans (W1_of_ne m ρ c main_arg11 (by decide))
theorem biases_at2 : W2 m ρ c (Proc.devRef .tc main_arg12) = a12 m c :=
  (W2_of_ne m ρ c main_arg12 (by decide)).trans (W1_of_ne m ρ c main_arg12 (by decide))

/-! ## Layer 1 -/

/-- Entering the layer's host stretch, the node states are the reference's previous states. -/
theorem states_at2 : W2 m ρ c (Proc.devRef .tc main_v0) = val_main_v8 (F := Ideal) (a0 m c) (a3 m c) (a4 m c) (a5 m c) (a6 m c) :=
  (W2_of_ne m ρ c main_v0 (by decide)).trans (node_states0 m ρ c)

set_option maxHeartbeats 4000000 in
/-- The stretch's gather, message, and scatter-add are the reference's own operations on equal operands: the kernel's
    extra change of float format of the edge encoding is the identity on the extended reals. -/
theorem messages2 : W5 m ρ c (Proc.devRef .tc main_v20) = val_main_v35 (F := Ideal) (a0 m c) (a1 m c) (a2 m c) (a3 m c) (a4 m c) (a5 m c) (a6 m c) (a7 m c) (a8 m c) (a9 m c) (a10 m c) := by
  have hh := states_at2 m ρ c
  have he := edges_at2 m ρ c
  have hi := index_at2 m ρ c
  show StableHlo.after hostOps2_2 (StableHlo.after hostOps2_1 (StableHlo.after hostOps2 (W2 m ρ c))) (Proc.devRef .tc main_v20) = _
  after_results_simp
  rw [hh, he, hi]
  rfl

set_option maxHeartbeats 4000000 in
/-- The layer's weight, sliced out of the stacked weights and viewed as a matrix, as in the reference. -/
theorem weight2 : W5 m ρ c (Proc.devRef .tc main_v22) = val_main_v38 (F := Ideal) (a11 m c) := by
  have h11 := weights_at2 m ρ c
  show StableHlo.after hostOps2_2 (StableHlo.after hostOps2_1 (StableHlo.after hostOps2 (W2 m ρ c))) (Proc.devRef .tc main_v22) = _
  after_results_simp
  rw [h11]
  rfl

set_option maxHeartbeats 4000000 in
/-- The layer's bias, sliced out of the stacked biases and viewed as a vector, as in the reference. -/
theorem bias2 : W5 m ρ c (Proc.devRef .tc main_v24) = val_main_v41 (F := Ideal) (a12 m c) := by
  have h12 := biases_at2 m ρ c
  show StableHlo.after hostOps2_2 (StableHlo.after hostOps2_1 (StableHlo.after hostOps2 (W2 m ρ c))) (Proc.devRef .tc main_v24) = _
  after_results_simp
  rw [h12]
  rfl

/-- The stretch writes none of the node states. -/
theorem states_at5 : W5 m ρ c (Proc.devRef .tc main_v0) = val_main_v8 (F := Ideal) (a0 m c) (a3 m c) (a4 m c) (a5 m c) (a6 m c) :=
  (((by stretch_keeps : W5 m ρ c (Proc.devRef .tc main_v0) = W4 m ρ c (Proc.devRef .tc main_v0)).trans ((by stretch_keeps : W4 m ρ c (Proc.devRef .tc main_v0) = W3 m ρ c (Proc.devRef .tc main_v0)).trans (by stretch_keeps : W3 m ρ c (Proc.devRef .tc main_v0) = W2 m ρ c (Proc.devRef .tc main_v0))))).trans (states_at2 m ρ c)

/-- After the layer's region the new node states are the reference's. -/
theorem states_after2 : W6 m ρ c (Proc.devRef .tc main_v25) = val_main_v44 (F := Ideal) (a0 m c) (a1 m c) (a2 m c) (a3 m c) (a4 m c) (a5 m c) (a6 m c) (a7 m c) (a8 m c) (a9 m c) (a10 m c) (a11 m c) (a12 m c) := by
  refine (W6_arr m ρ c 4).trans ((final_update2 (V5 m ρ) c).trans ?_)
  rw [show V5 m ρ c main_v20 = _ from messages2 m ρ c, show V5 m ρ c main_v0 = _ from states_at5 m ρ c,
    show V5 m ρ c main_v22 = _ from weight2 m ρ c, show V5 m ρ c main_v24 = _ from bias2 m ρ c]
  exact (ref_update1 (a0 m c) (a1 m c) (a2 m c) (a3 m c) (a4 m c) (a5 m c) (a6 m c) (a7 m c) (a8 m c) (a9 m c) (a10 m c) (a11 m c) (a12 m c)).symm

set_option maxHeartbeats 4000000 in
/-- The first stretch slices the edges' source and target nodes out of the edge index once; every layer reuses them, as
    the reference reuses its own. -/
theorem sources_at5 : W5 m ρ c (Proc.devRef .tc main_v3) = val_main_v19 (F := Ideal) (a2 m c) := by
  have hi := index_at2 m ρ c
  show StableHlo.after hostOps2_2 (StableHlo.after hostOps2_1 (StableHlo.after hostOps2 (W2 m ρ c))) (Proc.devRef .tc main_v3) = _
  after_results_simp
  rw [hi]
  rfl
set_option maxHeartbeats 4000000 in
theorem targets_at5 : W5 m ρ c (Proc.devRef .tc main_v5) = val_main_v21 (F := Ideal) (a2 m c) := by
  have hi := index_at2 m ρ c
  show StableHlo.after hostOps2_2 (StableHlo.after hostOps2_1 (StableHlo.after hostOps2 (W2 m ρ c))) (Proc.devRef .tc main_v5) = _
  after_results_simp
  rw [hi]
  rfl

/-! What the next layer reads besides the node states -/

theorem edges_at6 : W6 m ρ c (Proc.devRef .tc main_v1) = val_main_v17 (F := Ideal) (a1 m c) (a7 m c) (a8 m c) (a9 m c) (a10 m c) :=
  (((W6_of_ne m ρ c main_v1 (by decide)).trans ((by stretch_keeps : W5 m ρ c (Proc.devRef .tc main_v1) = W4 m ρ c (Proc.devRef .tc main_v1)).trans ((by stretch_keeps : W4 m ρ c (Proc.devRef .tc main_v1) = W3 m ρ c (Proc.devRef .tc main_v1)).trans (by stretch_keeps : W3 m ρ c (Proc.devRef .tc main_v1) = W2 m ρ c (Proc.devRef .tc main_v1)))))).trans (edges_at2 m ρ c)
theorem weights_at6 : W6 m ρ c (Proc.devRef .tc main_arg11) = a11 m c :=
  (((W6_of_ne m ρ c main_arg11 (by decide)).trans ((by stretch_keeps : W5 m ρ c (Proc.devRef .tc main_arg11) = W4 m ρ c (Proc.devRef .tc main_arg11)).trans ((by stretch_keeps : W4 m ρ c (Proc.devRef .tc main_arg11) = W3 m ρ c (Proc.devRef .tc main_arg11)).trans (by stretch_keeps : W3 m ρ c (Proc.devRef .tc main_arg11) = W2 m ρ c (Proc.devRef .tc main_arg11)))))).trans (weights_at2 m ρ c)
theorem biases_at6 : W6 m ρ c (Proc.devRef .tc main_arg12) = a12 m c :=
  (((W6_of_ne m ρ c main_arg12 (by decide)).trans ((by stretch_keeps : W5 m ρ c (Proc.devRef .tc main_arg12) = W4 m ρ c (Proc.devRef .tc main_arg12)).trans ((by stretch_keeps : W4 m ρ c (Proc.devRef .tc main_arg12) = W3 m ρ c (Proc.devRef .tc main_arg12)).trans (by stretch_keeps : W3 m ρ c (Proc.devRef .tc main_arg12) = W2 m ρ c (Proc.devRef .tc main_arg12)))))).trans (biases_at2 m ρ c)
theorem sources_at6 : W6 m ρ c (Proc.devRef .tc main_v3) = val_main_v19 (F := Ideal) (a2 m c) :=
  (W6_of_ne m ρ c main_v3 (by decide)).trans (sources_at5 m ρ c)
theorem targets_at6 : W6 m ρ c (Proc.devRef .tc main_v5) = val_main_v21 (F := Ideal) (a2 m c) :=
  (W6_of_ne m ρ c main_v5 (by decide)).trans (targets_at5 m ρ c)

/-! ## Layer 2 -/

/-- Entering the layer's host stretch, the node states are the reference's previous states. -/
theorem states_at6 : W6 m ρ c (Proc.devRef .tc main_v25) = val_main_v44 (F := Ideal) (a0 m c) (a1 m c) (a2 m c) (a3 m c) (a4 m c) (a5 m c) (a6 m c) (a7 m c) (a8 m c) (a9 m c) (a10 m c) (a11 m c) (a12 m c) :=
  states_after2 m ρ c

set_option maxHeartbeats 4000000 in
/-- The stretch's gather, message, and scatter-add are the reference's own operations on equal operands: the kernel's
    extra change of float format of the edge encoding is the identity on the extended reals. -/
theorem messages3 : W9 m ρ c (Proc.devRef .tc main_v40) = val_main_v58 (F := Ideal) (a0 m c) (a1 m c) (a2 m c) (a3 m c) (a4 m c) (a5 m c) (a6 m c) (a7 m c) (a8 m c) (a9 m c) (a10 m c) (a11 m c) (a12 m c) := by
  have hh := states_at6 m ρ c
  have he := edges_at6 m ρ c
  have hs := sources_at6 m ρ c
  have hd := targets_at6 m ρ c
  show StableHlo.after hostOps3_2 (StableHlo.after hostOps3_1 (StableHlo.after hostOps3 (W6 m ρ c))) (Proc.devRef .tc main_v40) = _
  after_results_simp
  rw [hh, he, hs, hd]
  rfl

set_option maxHeartbeats 4000000 in
/-- The layer's weight, sliced out of the stacked weights and viewed as a matrix, as in the reference. -/
theorem weight3 : W9 m ρ c (Proc.devRef .tc main_v42) = val_main_v61 (F := Ideal) (a11 m c) := by
  have h11 := weights_at6 m ρ c
  show StableHlo.after hostOps3_2 (StableHlo.after hostOps3_1 (StableHlo.after hostOps3 (W6 m ρ c))) (Proc.devRef .tc main_v42) = _
  after_results_simp
  rw [h11]
  rfl

set_option maxHeartbeats 4000000 in
/-- The layer's bias, sliced out of the stacked biases and viewed as a vector, as in the reference. -/
theorem bias3 : W9 m ρ c (Proc.devRef .tc main_v44) = val_main_v64 (F := Ideal) (a12 m c) := by
  have h12 := biases_at6 m ρ c
  show StableHlo.after hostOps3_2 (StableHlo.after hostOps3_1 (StableHlo.after hostOps3 (W6 m ρ c))) (Proc.devRef .tc main_v44) = _
  after_results_simp
  rw [h12]
  rfl

/-- The stretch writes none of the node states. -/
theorem states_at9 : W9 m ρ c (Proc.devRef .tc main_v25) = val_main_v44 (F := Ideal) (a0 m c) (a1 m c) (a2 m c) (a3 m c) (a4 m c) (a5 m c) (a6 m c) (a7 m c) (a8 m c) (a9 m c) (a10 m c) (a11 m c) (a12 m c) :=
  (((by stretch_keeps : W9 m ρ c (Proc.devRef .tc main_v25) = W8 m ρ c (Proc.devRef .tc main_v25)).trans ((by stretch_keeps : W8 m ρ c (Proc.devRef .tc main_v25) = W7 m ρ c (Proc.devRef .tc main_v25)).trans (by stretch_keeps : W7 m ρ c (Proc.devRef .tc main_v25) = W6 m ρ c (Proc.devRef .tc main_v25))))).trans (states_at6 m ρ c)

/-- After the layer's region the new node states are the reference's. -/
theorem states_after3 : W10 m ρ c (Proc.devRef .tc main_v45) = val_main_v67 (F := Ideal) (a0 m c) (a1 m c) (a2 m c) (a3 m c) (a4 m c) (a5 m c) (a6 m c) (a7 m c) (a8 m c) (a9 m c) (a10 m c) (a11 m c) (a12 m c) := by
  refine (W10_arr m ρ c 4).trans ((final_update3 (V9 m ρ) c).trans ?_)
  rw [show V9 m ρ c main_v40 = _ from messages3 m ρ c, show V9 m ρ c main_v25 = _ from states_at9 m ρ c,
    show V9 m ρ c main_v42 = _ from weight3 m ρ c, show V9 m ρ c main_v44 = _ from bias3 m ρ c]
  exact (ref_update2 (a0 m c) (a1 m c) (a2 m c) (a3 m c) (a4 m c) (a5 m c) (a6 m c) (a7 m c) (a8 m c) (a9 m c) (a10 m c) (a11 m c) (a12 m c)).symm

/-! What the next layer reads besides the node states -/

theorem edges_at10 : W10 m ρ c (Proc.devRef .tc main_v1) = val_main_v17 (F := Ideal) (a1 m c) (a7 m c) (a8 m c) (a9 m c) (a10 m c) :=
  (((W10_of_ne m ρ c main_v1 (by decide)).trans ((by stretch_keeps : W9 m ρ c (Proc.devRef .tc main_v1) = W8 m ρ c (Proc.devRef .tc main_v1)).trans ((by stretch_keeps : W8 m ρ c (Proc.devRef .tc main_v1) = W7 m ρ c (Proc.devRef .tc main_v1)).trans (by stretch_keeps : W7 m ρ c (Proc.devRef .tc main_v1) = W6 m ρ c (Proc.devRef .tc main_v1)))))).trans (edges_at6 m ρ c)
theorem weights_at10 : W10 m ρ c (Proc.devRef .tc main_arg11) = a11 m c :=
  (((W10_of_ne m ρ c main_arg11 (by decide)).trans ((by stretch_keeps : W9 m ρ c (Proc.devRef .tc main_arg11) = W8 m ρ c (Proc.devRef .tc main_arg11)).trans ((by stretch_keeps : W8 m ρ c (Proc.devRef .tc main_arg11) = W7 m ρ c (Proc.devRef .tc main_arg11)).trans (by stretch_keeps : W7 m ρ c (Proc.devRef .tc main_arg11) = W6 m ρ c (Proc.devRef .tc main_arg11)))))).trans (weights_at6 m ρ c)
theorem biases_at10 : W10 m ρ c (Proc.devRef .tc main_arg12) = a12 m c :=
  (((W10_of_ne m ρ c main_arg12 (by decide)).trans ((by stretch_keeps : W9 m ρ c (Proc.devRef .tc main_arg12) = W8 m ρ c (Proc.devRef .tc main_arg12)).trans ((by stretch_keeps : W8 m ρ c (Proc.devRef .tc main_arg12) = W7 m ρ c (Proc.devRef .tc main_arg12)).trans (by stretch_keeps : W7 m ρ c (Proc.devRef .tc main_arg12) = W6 m ρ c (Proc.devRef .tc main_arg12)))))).trans (biases_at6 m ρ c)
theorem sources_at10 : W10 m ρ c (Proc.devRef .tc main_v3) = val_main_v19 (F := Ideal) (a2 m c) :=
  (((W10_of_ne m ρ c main_v3 (by decide)).trans ((by stretch_keeps : W9 m ρ c (Proc.devRef .tc main_v3) = W8 m ρ c (Proc.devRef .tc main_v3)).trans ((by stretch_keeps : W8 m ρ c (Proc.devRef .tc main_v3) = W7 m ρ c (Proc.devRef .tc main_v3)).trans (by stretch_keeps : W7 m ρ c (Proc.devRef .tc main_v3) = W6 m ρ c (Proc.devRef .tc main_v3)))))).trans (sources_at6 m ρ c)
theorem targets_at10 : W10 m ρ c (Proc.devRef .tc main_v5) = val_main_v21 (F := Ideal) (a2 m c) :=
  (((W10_of_ne m ρ c main_v5 (by decide)).trans ((by stretch_keeps : W9 m ρ c (Proc.devRef .tc main_v5) = W8 m ρ c (Proc.devRef .tc main_v5)).trans ((by stretch_keeps : W8 m ρ c (Proc.devRef .tc main_v5) = W7 m ρ c (Proc.devRef .tc main_v5)).trans (by stretch_keeps : W7 m ρ c (Proc.devRef .tc main_v5) = W6 m ρ c (Proc.devRef .tc main_v5)))))).trans (targets_at6 m ρ c)

/-! ## Layer 3 -/

/-- Entering the layer's host stretch, the node states are the reference's previous states. -/
theorem states_at10 : W10 m ρ c (Proc.devRef .tc main_v45) = val_main_v67 (F := Ideal) (a0 m c) (a1 m c) (a2 m c) (a3 m c) (a4 m c) (a5 m c) (a6 m c) (a7 m c) (a8 m c) (a9 m c) (a10 m c) (a11 m c) (a12 m c) :=
  states_after3 m ρ c

set_option maxHeartbeats 4000000 in
/-- The stretch's gather, message, and scatter-add are the reference's own operations on equal operands: the kernel's
    extra change of float format of the edge encoding is the identity on the extended reals. -/
theorem messages4 : W13 m ρ c (Proc.devRef .tc main_v60) = val_main_v81 (F := Ideal) (a0 m c) (a1 m c) (a2 m c) (a3 m c) (a4 m c) (a5 m c) (a6 m c) (a7 m c) (a8 m c) (a9 m c) (a10 m c) (a11 m c) (a12 m c) := by
  have hh := states_at10 m ρ c
  have he := edges_at10 m ρ c
  have hs := sources_at10 m ρ c
  have hd := targets_at10 m ρ c
  show StableHlo.after hostOps4_2 (StableHlo.after hostOps4_1 (StableHlo.after hostOps4 (W10 m ρ c))) (Proc.devRef .tc main_v60) = _
  after_results_simp
  rw [hh, he, hs, hd]
  rfl

set_option maxHeartbeats 4000000 in
/-- The layer's weight, sliced out of the stacked weights and viewed as a matrix, as in the reference. -/
theorem weight4 : W13 m ρ c (Proc.devRef .tc main_v62) = val_main_v84 (F := Ideal) (a11 m c) := by
  have h11 := weights_at10 m ρ c
  show StableHlo.after hostOps4_2 (StableHlo.after hostOps4_1 (StableHlo.after hostOps4 (W10 m ρ c))) (Proc.devRef .tc main_v62) = _
  after_results_simp
  rw [h11]
  rfl

set_option maxHeartbeats 4000000 in
/-- The layer's bias, sliced out of the stacked biases and viewed as a vector, as in the reference. -/
theorem bias4 : W13 m ρ c (Proc.devRef .tc main_v64) = val_main_v87 (F := Ideal) (a12 m c) := by
  have h12 := biases_at10 m ρ c
  show StableHlo.after hostOps4_2 (StableHlo.after hostOps4_1 (StableHlo.after hostOps4 (W10 m ρ c))) (Proc.devRef .tc main_v64) = _
  after_results_simp
  rw [h12]
  rfl

/-- The stretch writes none of the node states. -/
theorem states_at13 : W13 m ρ c (Proc.devRef .tc main_v45) = val_main_v67 (F := Ideal) (a0 m c) (a1 m c) (a2 m c) (a3 m c) (a4 m c) (a5 m c) (a6 m c) (a7 m c) (a8 m c) (a9 m c) (a10 m c) (a11 m c) (a12 m c) :=
  (((by stretch_keeps : W13 m ρ c (Proc.devRef .tc main_v45) = W12 m ρ c (Proc.devRef .tc main_v45)).trans ((by stretch_keeps : W12 m ρ c (Proc.devRef .tc main_v45) = W11 m ρ c (Proc.devRef .tc main_v45)).trans (by stretch_keeps : W11 m ρ c (Proc.devRef .tc main_v45) = W10 m ρ c (Proc.devRef .tc main_v45))))).trans (states_at10 m ρ c)

/-- After the layer's region the new node states are the reference's. -/
theorem states_after4 : W14 m ρ c (Proc.devRef .tc main_v65) = val_main_v90 (F := Ideal) (a0 m c) (a1 m c) (a2 m c) (a3 m c) (a4 m c) (a5 m c) (a6 m c) (a7 m c) (a8 m c) (a9 m c) (a10 m c) (a11 m c) (a12 m c) := by
  refine (W14_arr m ρ c 4).trans ((final_update4 (V13 m ρ) c).trans ?_)
  rw [show V13 m ρ c main_v60 = _ from messages4 m ρ c, show V13 m ρ c main_v45 = _ from states_at13 m ρ c,
    show V13 m ρ c main_v62 = _ from weight4 m ρ c, show V13 m ρ c main_v64 = _ from bias4 m ρ c]
  exact (ref_update3 (a0 m c) (a1 m c) (a2 m c) (a3 m c) (a4 m c) (a5 m c) (a6 m c) (a7 m c) (a8 m c) (a9 m c) (a10 m c) (a11 m c) (a12 m c)).symm

/-! What the next layer reads besides the node states -/

theorem edges_at14 : W14 m ρ c (Proc.devRef .tc main_v1) = val_main_v17 (F := Ideal) (a1 m c) (a7 m c) (a8 m c) (a9 m c) (a10 m c) :=
  (((W14_of_ne m ρ c main_v1 (by decide)).trans ((by stretch_keeps : W13 m ρ c (Proc.devRef .tc main_v1) = W12 m ρ c (Proc.devRef .tc main_v1)).trans ((by stretch_keeps : W12 m ρ c (Proc.devRef .tc main_v1) = W11 m ρ c (Proc.devRef .tc main_v1)).trans (by stretch_keeps : W11 m ρ c (Proc.devRef .tc main_v1) = W10 m ρ c (Proc.devRef .tc main_v1)))))).trans (edges_at10 m ρ c)
theorem weights_at14 : W14 m ρ c (Proc.devRef .tc main_arg11) = a11 m c :=
  (((W14_of_ne m ρ c main_arg11 (by decide)).trans ((by stretch_keeps : W13 m ρ c (Proc.devRef .tc main_arg11) = W12 m ρ c (Proc.devRef .tc main_arg11)).trans ((by stretch_keeps : W12 m ρ c (Proc.devRef .tc main_arg11) = W11 m ρ c (Proc.devRef .tc main_arg11)).trans (by stretch_keeps : W11 m ρ c (Proc.devRef .tc main_arg11) = W10 m ρ c (Proc.devRef .tc main_arg11)))))).trans (weights_at10 m ρ c)
theorem biases_at14 : W14 m ρ c (Proc.devRef .tc main_arg12) = a12 m c :=
  (((W14_of_ne m ρ c main_arg12 (by decide)).trans ((by stretch_keeps : W13 m ρ c (Proc.devRef .tc main_arg12) = W12 m ρ c (Proc.devRef .tc main_arg12)).trans ((by stretch_keeps : W12 m ρ c (Proc.devRef .tc main_arg12) = W11 m ρ c (Proc.devRef .tc main_arg12)).trans (by stretch_keeps : W11 m ρ c (Proc.devRef .tc main_arg12) = W10 m ρ c (Proc.devRef .tc main_arg12)))))).trans (biases_at10 m ρ c)
theorem sources_at14 : W14 m ρ c (Proc.devRef .tc main_v3) = val_main_v19 (F := Ideal) (a2 m c) :=
  (((W14_of_ne m ρ c main_v3 (by decide)).trans ((by stretch_keeps : W13 m ρ c (Proc.devRef .tc main_v3) = W12 m ρ c (Proc.devRef .tc main_v3)).trans ((by stretch_keeps : W12 m ρ c (Proc.devRef .tc main_v3) = W11 m ρ c (Proc.devRef .tc main_v3)).trans (by stretch_keeps : W11 m ρ c (Proc.devRef .tc main_v3) = W10 m ρ c (Proc.devRef .tc main_v3)))))).trans (sources_at10 m ρ c)
theorem targets_at14 : W14 m ρ c (Proc.devRef .tc main_v5) = val_main_v21 (F := Ideal) (a2 m c) :=
  (((W14_of_ne m ρ c main_v5 (by decide)).trans ((by stretch_keeps : W13 m ρ c (Proc.devRef .tc main_v5) = W12 m ρ c (Proc.devRef .tc main_v5)).trans ((by stretch_keeps : W12 m ρ c (Proc.devRef .tc main_v5) = W11 m ρ c (Proc.devRef .tc main_v5)).trans (by stretch_keeps : W11 m ρ c (Proc.devRef .tc main_v5) = W10 m ρ c (Proc.devRef .tc main_v5)))))).trans (targets_at10 m ρ c)

/-! ## Layer 4 -/

/-- Entering the layer's host stretch, the node states are the reference's previous states. -/
theorem states_at14 : W14 m ρ c (Proc.devRef .tc main_v65) = val_main_v90 (F := Ideal) (a0 m c) (a1 m c) (a2 m c) (a3 m c) (a4 m c) (a5 m c) (a6 m c) (a7 m c) (a8 m c) (a9 m c) (a10 m c) (a11 m c) (a12 m c) :=
  states_after4 m ρ c

set_option maxHeartbeats 4000000 in
/-- The stretch's gather, message, and scatter-add are the reference's own operations on equal operands: the kernel's
    extra change of float format of the edge encoding is the identity on the extended reals. -/
theorem messages5 : W17 m ρ c (Proc.devRef .tc main_v80) = val_main_v104 (F := Ideal) (a0 m c) (a1 m c) (a2 m c) (a3 m c) (a4 m c) (a5 m c) (a6 m c) (a7 m c) (a8 m c) (a9 m c) (a10 m c) (a11 m c) (a12 m c) := by
  have hh := states_at14 m ρ c
  have he := edges_at14 m ρ c
  have hs := sources_at14 m ρ c
  have hd := targets_at14 m ρ c
  show StableHlo.after hostOps5_2 (StableHlo.after hostOps5_1 (StableHlo.after hostOps5 (W14 m ρ c))) (Proc.devRef .tc main_v80) = _
  after_results_simp
  rw [hh, he, hs, hd]
  rfl

set_option maxHeartbeats 4000000 in
/-- The layer's weight, sliced out of the stacked weights and viewed as a matrix, as in the reference. -/
theorem weight5 : W17 m ρ c (Proc.devRef .tc main_v82) = val_main_v107 (F := Ideal) (a11 m c) := by
  have h11 := weights_at14 m ρ c
  show StableHlo.after hostOps5_2 (StableHlo.after hostOps5_1 (StableHlo.after hostOps5 (W14 m ρ c))) (Proc.devRef .tc main_v82) = _
  after_results_simp
  rw [h11]
  rfl

set_option maxHeartbeats 4000000 in
/-- The layer's bias, sliced out of the stacked biases and viewed as a vector, as in the reference. -/
theorem bias5 : W17 m ρ c (Proc.devRef .tc main_v84) = val_main_v110 (F := Ideal) (a12 m c) := by
  have h12 := biases_at14 m ρ c
  show StableHlo.after hostOps5_2 (StableHlo.after hostOps5_1 (StableHlo.after hostOps5 (W14 m ρ c))) (Proc.devRef .tc main_v84) = _
  after_results_simp
  rw [h12]
  rfl

/-- The stretch writes none of the node states. -/
theorem states_at17 : W17 m ρ c (Proc.devRef .tc main_v65) = val_main_v90 (F := Ideal) (a0 m c) (a1 m c) (a2 m c) (a3 m c) (a4 m c) (a5 m c) (a6 m c) (a7 m c) (a8 m c) (a9 m c) (a10 m c) (a11 m c) (a12 m c) :=
  (((by stretch_keeps : W17 m ρ c (Proc.devRef .tc main_v65) = W16 m ρ c (Proc.devRef .tc main_v65)).trans ((by stretch_keeps : W16 m ρ c (Proc.devRef .tc main_v65) = W15 m ρ c (Proc.devRef .tc main_v65)).trans (by stretch_keeps : W15 m ρ c (Proc.devRef .tc main_v65) = W14 m ρ c (Proc.devRef .tc main_v65))))).trans (states_at14 m ρ c)

/-- After the layer's region the new node states are the reference's. -/
theorem states_after5 : W18 m ρ c (Proc.devRef .tc main_v85) = val_main_v113 (F := Ideal) (a0 m c) (a1 m c) (a2 m c) (a3 m c) (a4 m c) (a5 m c) (a6 m c) (a7 m c) (a8 m c) (a9 m c) (a10 m c) (a11 m c) (a12 m c) := by
  refine (W18_arr m ρ c 4).trans ((final_update5 (V17 m ρ) c).trans ?_)
  rw [show V17 m ρ c main_v80 = _ from messages5 m ρ c, show V17 m ρ c main_v65 = _ from states_at17 m ρ c,
    show V17 m ρ c main_v82 = _ from weight5 m ρ c, show V17 m ρ c main_v84 = _ from bias5 m ρ c]
  exact (ref_update4 (a0 m c) (a1 m c) (a2 m c) (a3 m c) (a4 m c) (a5 m c) (a6 m c) (a7 m c) (a8 m c) (a9 m c) (a10 m c) (a11 m c) (a12 m c)).symm

/-! ## The output head -/

/-- The head's weight and bias are as launched when the last stretch begins. -/
theorem head_weight : W18 m ρ c (Proc.devRef .tc main_arg13) = a13 m c :=
  ((by stretch_keeps : W19 m ρ c (Proc.devRef .tc main_arg13) = W18 m ρ c (Proc.devRef .tc main_arg13)).symm).trans
    (W19_main_arg13 m ρ c)
theorem head_bias : W18 m ρ c (Proc.devRef .tc main_arg14) = a14 m c :=
  ((by stretch_keeps : W19 m ρ c (Proc.devRef .tc main_arg14) = W18 m ρ c (Proc.devRef .tc main_arg14)).symm).trans
    (W19_main_arg14 m ρ c)

set_option maxHeartbeats 4000000 in
/-- THE RESULT: at the return the result buffer holds the reference's result stage of the launch arguments. -/
theorem result_value : W19 m ρ c (Proc.devRef .tc main_v89) = val_main_v117 (F := Ideal) (a0 m c) (a1 m c) (a2 m c) (a3 m c) (a4 m c) (a5 m c) (a6 m c) (a7 m c) (a8 m c) (a9 m c) (a10 m c) (a11 m c) (a12 m c) (a13 m c) (a14 m c) := by
  have hs := states_after5 m ρ c
  have h13 := head_weight m ρ c
  have h14 := head_bias m ρ c
  show StableHlo.after hostOps6 (W18 m ρ c) (Proc.devRef .tc main_v89) = _
  after_results_simp
  rw [hs, h13, h14]
  rfl

end Cert.KernelIdeal.Chain

end
-- ==== Proof.lean ====
/-
  A four-layer message-passing network over a graph of 30000 nodes and 300000 edges: the kernel program against
  its plain reference, equal at the ideal values.

  Both programs encode the one-feature node and edge inputs by  relu(x · w1 + b1) · w2 + b2  into 256 features,
  then four times form, per edge, relu(h[source] + e) + 1e-7, sum these messages at the edges' target nodes, and
  update  h := (aggregate + h) · W_l + b_l;  the result is  h · out_w + out_b.
  The kernel program runs the two encoders and the four updates as kernel regions over blocks of 3000 rows —
  rounding its matrix products' operands to a shorter float format, which is the identity on the extended reals,
  and writing the encoders' first product, over a single input feature, as a broadcast multiplication — and
  leaves the gather, the message, the scatter-add and the output head to the same host operations as the
  reference. So at the ideal values the two results are one composition of the same stages:
  * `LayerSpec` states the two kinds of layer entry by entry; `Payloads` reads the six kernel bodies at an entry;
    `RegionEncode0/1` and `RegionUpdate2–5` show each region's output array is the layer of its input arrays (the
    blocks tile the array); `RefLayers` shows the reference's host operations compute the same layers;
  * `KernelRun` names every buffer at the end of the kernel program's run, and `HostChain` walks the buffers
    from the launch to the return, stage by stage equal to the reference's;
  * the reference's run and its stages read at an index are generated modules.
  No step uses that the inputs are finite: every law used (the order of a finite sum, entrywise operations,
  re-layouts) holds on all extended reals. The idealization rewrote nothing, so its ledger is empty.
-/
import proofs.«156761_j26216480375265_2_alg».proof.Defs
import proofs.«156761_j26216480375265_2_alg».proof.Proof.Gen.Kernel
import proofs.«156761_j26216480375265_2_alg».proof.Proof.Gen.Kernel.Frame
import proofs.«156761_j26216480375265_2_alg».proof.Proof.Gen.KernelIdeal
import proofs.«156761_j26216480375265_2_alg».proof.Proof.Gen.KernelIdeal.Frame
import proofs.«156761_j26216480375265_2_alg».proof.Proof.Gen.ReferenceIdeal
import proofs.«156761_j26216480375265_2_alg».proof.Proof.Gen.ReferenceIdeal.Run
import proofs.«156761_j26216480375265_2_alg».proof.Proof.Gen.ReferenceIdeal.Read
import proofs.«156761_j26216480375265_2_alg».proof.Proof.Gen.Pre_finite_inputs
import proofs.«156761_j26216480375265_2_alg».proof.Proof.KernelRun
import proofs.«156761_j26216480375265_2_alg».proof.Proof.HostChain
import Idealize.ShloMosaic.Adequacy
import Idealize.ShloMosaic.Init

noncomputable section

namespace Cert.Proof

open Idealize.ShloMosaic Idealize.ShloMosaic.TcCoe Idealize.SL.Sem

/-- The word-level kernel program runs and leaves its arguments in place: the generated frame. -/
theorem frame_kernel : Cert.frame_Kernel := fun m ρ _ => Cert.Kernel.Gen.frame m ρ

/-- The same of the idealized kernel program. -/
theorem frame_ideal : Cert.frame_KernelIdeal := fun m ρ _ => Cert.KernelIdeal.Gen.frame m ρ

/-- The reference is a line of host operations: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs run, and the kernel program's result buffer ends at the
    reference's result stage of the arguments — which is what the reference's own run ends at. -/
theorem algebraic : Cert.algebraic_KernelIdeal_ReferenceIdeal := by
  intro m ρ m' ρ' _ hagree
  refine ⟨fun c => Cert.KernelIdeal.Gen.W19 m ρ c (Proc.devRef .tc Cert.KernelIdeal.main_v89),
    Cert.KernelIdeal.Named.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v117_eq, h0, h1, h2, h3, h4, h5, h6, h7, h8, h9, h10, h11, h12, h13, h14]
  exact (Cert.KernelIdeal.Chain.result_value m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
